-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x800000 32) (main_arg2 : FVec F S128x256 .f32) (main_arg3 : FVec F S256 .f32) (main_arg4 : FVec F S256x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S100000x1 : Shape := ⟨2, ![100000, 1]⟩
abbrev S100000x256 : Shape := ⟨2, ![100000, 256]⟩
abbrev S10000x128 : Shape := ⟨2, ![10000, 128]⟩
abbrev S10000x256 : Shape := ⟨2, ![10000, 256]⟩
abbrev S800000x1 : Shape := ⟨2, ![800000, 1]⟩
abbrev S800000x256 : Shape := ⟨2, ![800000, 256]⟩
abbrev S1x256 : Shape := ⟨2, ![1, 256]⟩
abbrev S100000x64 : Shape := ⟨2, ![100000, 64]⟩
abbrev S10000x64 : Shape := ⟨2, ![10000, 64]⟩
abbrev S800000x64 : Shape := ⟨2, ![800000, 64]⟩
abbrev S1x64 : Shape := ⟨2, ![1, 64]⟩

abbrev nBuf : Space → Nat
  | .hbm => 74
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S100000, .i32⟩
  | .hbm, ⟨11, _⟩ => ⟨S900000, .i32⟩
  | .hbm, ⟨12, _⟩ => ⟨S_, .f32⟩
  | .hbm, ⟨13, _⟩ => ⟨S900000, .f32⟩
  | .hbm, ⟨14, _⟩ => ⟨S_, .f32⟩
  | .hbm, ⟨15, _⟩ => ⟨S100000, .f32⟩
  | .hbm, ⟨16, _⟩ => ⟨S900000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x256, .f32⟩
  | .hbm, ⟨28, _⟩ => ⟨S100000x256, .f32⟩
  | .hbm, ⟨29, _⟩ => ⟨S100000x256, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x256, .f32⟩
  | .hbm, ⟨39, _⟩ => ⟨S_, .f32⟩
  | .hbm, ⟨40, _⟩ => ⟨S100000x256, .f32⟩
  | .hbm, ⟨41, _⟩ => ⟨S800000x1, .i32⟩
  | .hbm, ⟨42, _⟩ => ⟨S100000x256, .f32⟩
  | .hbm, ⟨43, _⟩ => ⟨S100000x256, .f32⟩
  | .hbm, ⟨44, _⟩ => ⟨S100000x256, .f32⟩
  | .hbm, ⟨45, _⟩ => ⟨S100000x256, .f32⟩
  | .hbm, ⟨46, _⟩ => ⟨S1x256, .f32⟩
  | .hbm, ⟨47, _⟩ => ⟨S100000x256, .f32⟩
  | .hbm, ⟨48, _⟩ => ⟨S100000x256, .f32⟩
  | .hbm, ⟨49, _⟩ => ⟨S_, .f32⟩
  | .hbm, ⟨50, _⟩ => ⟨S100000x256, .f32⟩
  | .hbm, ⟨51, _⟩ => ⟨S100000x256, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .f32⟩
  | .hbm, ⟨64, _⟩ => ⟨S_, .f32⟩
  | .hbm, ⟨65, _⟩ => ⟨S100000x64, .f32⟩
  | .hbm, ⟨66, _⟩ => ⟨S800000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x256, .f32⟩
  | .local _ .vmem, ⟨3, _⟩ => ⟨S10000x256, .f32⟩
  | .local _ .vmem, ⟨4, _⟩ => ⟨S10000x256, .f32⟩
  | .local _ .vmem, ⟨5, _⟩ => ⟨S10000x256, .f32⟩
  | .local _ .vmem, ⟨6, _⟩ => ⟨S10000x256, .f32⟩
  | .local _ .vmem, ⟨7, _⟩ => ⟨S256x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call1_cst : Ref sig .tc := ⟨.hbm, 49, rfl⟩
abbrev main_call1_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S10000x256_S10000x256_0_0 : ∀ a, (![0, 0] : Fin 2 → Nat) a + S10000x256.size a ≤ S10000x256.size a
  h_S10000x256 : 0 < S10000x256.numel
  bcast_S100000x1_S100000x256_0_1 : S100000x1.BroadcastsInDim S100000x256 (![0, 1] : Fin 2 → Fin S100000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S10000x256_S10000x256 : S10000x256.ShapeCasts S10000x256
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S900000x1_S900000_n_0_0_1_wf : ScatterDims.WF S100000 S900000x1 S900000 [] [0] [0] 1
  dot_S10000x128_S128x256_S10000x256_1_0_0_1_n_n_wf : DotDims.WF S10000x128 S128x256 S10000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S10000x256_S256x64_S10000x64_1_0_0_1_n_n_wf : DotDims.WF S10000x256 S256x64 S10000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S100000x256.size a
  hwx0_2 : ∀ i : grid0.Coords, EltTy.bits .f32 = 32 ∨ (Rect.block (s := S100000x256) S10000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S100000x256.size a
  hwx1_0 : ∀ i : grid1.Coords, EltTy.bits .f32 = 32 ∨ (Rect.block (s := S100000x256) S10000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S100000x256 : Shape := ⟨2, ![100000, 256]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x256 : Shape := ⟨2, ![900000, 256]⟩
abbrev S1x256 : Shape := ⟨2, ![1, 256]⟩
abbrev S100000x64 : Shape := ⟨2, ![100000, 64]⟩
abbrev S900000x64 : Shape := ⟨2, ![900000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x800000, .i32⟩
  | 2 => ⟨S128x256, .f32⟩
  | 3 => ⟨S256, .f32⟩
  | 4 => ⟨S256x64, .f32⟩
  | 5 => ⟨S64, .f32⟩
  | 6 => ⟨S100000x256, .f32⟩
  | 7 => ⟨S100000, .i32⟩
  | 8 => ⟨S1x800000, .i32⟩
  | 9 => ⟨S800000, .i32⟩
  | 10 => ⟨S900000, .i32⟩
  | 11 => ⟨S1x800000, .i32⟩
  | 12 => ⟨S800000, .i32⟩
  | 13 => ⟨S900000, .i32⟩
  | 14 => ⟨S_, .f32⟩
  | 15 => ⟨S900000, .f32⟩
  | 16 => ⟨S_, .f32⟩
  | 17 => ⟨S100000, .f32⟩
  | 18 => ⟨S900000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S900000, .i32⟩
  | 30 => ⟨S900000, .i1⟩
  | 31 => ⟨S_, .i32⟩
  | 32 => ⟨S900000, .i32⟩
  | 33 => ⟨S900000, .i32⟩
  | 34 => ⟨S900000, .i32⟩
  | 35 => ⟨S900000x1, .i32⟩
  | 36 => ⟨S900000, .f32⟩
  | 37 => ⟨S_, .i32⟩
  | 38 => ⟨S900000, .i32⟩
  | 39 => ⟨S900000, .i1⟩
  | 40 => ⟨S_, .i32⟩
  | 41 => ⟨S900000, .i32⟩
  | 42 => ⟨S900000, .i32⟩
  | 43 => ⟨S900000, .i32⟩
  | 44 => ⟨S900000x1, .i32⟩
  | 45 => ⟨S900000, .f32⟩
  | 46 => ⟨S900000, .f32⟩
  | 47 => ⟨S_, .i32⟩
  | 48 => ⟨S900000, .i32⟩
  | 49 => ⟨S900000, .i1⟩
  | 50 => ⟨S_, .i32⟩
  | 51 => ⟨S900000, .i32⟩
  | 52 => ⟨S900000, .i32⟩
  | 53 => ⟨S900000, .i32⟩
  | 54 => ⟨S900000x1, .i32⟩
  | 55 => ⟨S900000x256, .f32⟩
  | 56 => ⟨S900000x1, .f32⟩
  | 57 => ⟨S900000x256, .f32⟩
  | 58 => ⟨S900000x256, .f32⟩
  | 59 => ⟨S_, .f32⟩
  | 60 => ⟨S100000x256, .f32⟩
  | 61 => ⟨S900000x1, .i32⟩
  | 62 => ⟨S100000x256, .f32⟩
  | 63 => ⟨S1x256, .f32⟩
  | 64 => ⟨S100000x256, .f32⟩
  | 65 => ⟨S100000x256, .f32⟩
  | 66 => ⟨S_, .f32⟩
  | 67 => ⟨S100000x256, .f32⟩
  | 68 => ⟨S100000x256, .f32⟩
  | 69 => ⟨S100000x64, .f32⟩
  | 70 => ⟨S100000, .i32⟩
  | 71 => ⟨S1x800000, .i32⟩
  | 72 => ⟨S800000, .i32⟩
  | 73 => ⟨S900000, .i32⟩
  | 74 => ⟨S1x800000, .i32⟩
  | 75 => ⟨S800000, .i32⟩
  | 76 => ⟨S900000, .i32⟩
  | 77 => ⟨S_, .f32⟩
  | 78 => ⟨S900000, .f32⟩
  | 79 => ⟨S_, .f32⟩
  | 80 => ⟨S100000, .f32⟩
  | 81 => ⟨S900000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S900000, .i32⟩
  | 93 => ⟨S900000, .i1⟩
  | 94 => ⟨S_, .i32⟩
  | 95 => ⟨S900000, .i32⟩
  | 96 => ⟨S900000, .i32⟩
  | 97 => ⟨S900000, .i32⟩
  | 98 => ⟨S900000x1, .i32⟩
  | 99 => ⟨S900000, .f32⟩
  | 100 => ⟨S_, .i32⟩
  | 101 => ⟨S900000, .i32⟩
  | 102 => ⟨S900000, .i1⟩
  | 103 => ⟨S_, .i32⟩
  | 104 => ⟨S900000, .i32⟩
  | 105 => ⟨S900000, .i32⟩
  | 106 => ⟨S900000, .i32⟩
  | 107 => ⟨S900000x1, .i32⟩
  | 108 => ⟨S900000, .f32⟩
  | 109 => ⟨S900000, .f32⟩
  | 110 => ⟨S_, .i32⟩
  | 111 => ⟨S900000, .i32⟩
  | 112 => ⟨S900000, .i1⟩
  | 113 => ⟨S_, .i32⟩
  | 114 => ⟨S900000, .i32⟩
  | 115 => ⟨S900000, .i32⟩
  | 116 => ⟨S900000, .i32⟩
  | 117 => ⟨S900000x1, .i32⟩
  | 118 => ⟨S900000x64, .f32⟩
  | 119 => ⟨S900000x1, .f32⟩
  | 120 => ⟨S900000x64, .f32⟩
  | 121 => ⟨S900000x64, .f32⟩
  | 122 => ⟨S_, .f32⟩
  | 123 => ⟨S100000x64, .f32⟩
  | 124 => ⟨S900000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x256_S100000x256_1_0_0_1_n_n_wf : DotDims.WF S100000x128 S128x256 S100000x256 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x256_S256x64_S100000x64_1_0_0_1_n_n_wf : DotDims.WF S100000x256 S256x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.KRun.lean ====
/-
  The idealized kernel's run with its result named.

  @main is eight segments: three stretches of host operations (the degrees and their inverse square roots), the first
  product, two stretches (the first layer's aggregation, the clamp at zero), the second product, and one last stretch (the
  second layer's aggregation). Every buffer that is not scoped to a region ends the run holding what the fold of the segments
  leaves in it; the result buffer is one of them. So the run ends with the result at the last boundary's contents of its
  buffer, and the arguments as launched.
-/
import proofs.«165974_j30966714204224_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at what the last stretch of
    host operations leaves in it and the argument arrays as launched. -/
theorem run_result : θ_run defs (onTc (τ := τ) (main (F := F))) ⟨m, fun _ => 0, ρ⟩ (fun r => ∀ c : Dev nD,
      r.2.mem ((c.tc : Thread nD τ).loc main_v53) = W8 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v53 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.LibNonnegFactor.lean ====
/-
  A non-negative finite factor and finite sums of extended reals.

  On the extended reals a product does not distribute over a sum in general (the sum of +inf and -inf is -inf, and a negative
  factor turns it round). A factor c with 0 ≤ c and c ≠ +inf does distribute, over any two terms and so over any finite sum,
  whatever the terms are — none needs to be finite. With it: the identity that takes a node's weight out of a weighted
  neighbour sum with a self-loop term,
      c · ((0 + Σ_e A e · D e) + h · c) + b  =  (0 + (Σ_e A e · (D e · c) + h · (c · c))) + b ;
  a sum over the indices below m + n that satisfy a predicate, split into the part below m and the part from m on; and a sum
  over the indices equal to a given one, which is that one term. General: nothing here depends on a particular program;
  Mathlib imports only.
-/
import Mathlib.Data.EReal.Operations
import Mathlib.Data.EReal.Inv
import Mathlib.Algebra.BigOperators.Fin

open scoped BigOperators

namespace Cert.LibNonnegFactor

/-- A non-negative finite factor distributes over a finite sum of extended reals. -/
theorem mul_sum_of_nonneg {ι : Type*} (c : EReal) (h0 : 0 ≤ c) (ht : c ≠ ⊤) (S : Finset ι) (f : ι → EReal) :
    c * ∑ i ∈ S, f i = ∑ i ∈ S, c * f i := by
  classical
  induction S using Finset.induction_on with
  | empty => simp
  | insert a S ha ih =>
    rw [Finset.sum_insert ha, Finset.sum_insert ha, EReal.left_distrib_of_nonneg_of_ne_top h0 ht, ih]

/-- The layer identity at one node and one feature: the destination weight c taken out of the sum over the edges
    and out of the self-loop term. A e is the source's feature, D e the source's weight, h the node's own feature. -/
theorem layer_core {ι : Type*} (c : EReal) (h0 : 0 ≤ c) (ht : c ≠ ⊤) (S : Finset ι) (A D : ι → EReal) (h b : EReal) :
    c * ((0 + ∑ e ∈ S, A e * D e) + h * c) + b = (0 + (∑ e ∈ S, A e * (D e * c) + h * (c * c))) + b := by
  rw [zero_add, zero_add, EReal.left_distrib_of_nonneg_of_ne_top h0 ht, mul_sum_of_nonneg c h0 ht]
  congr 1
  congr 1
  · refine Finset.sum_congr rfl fun e _ => ?_
    rw [mul_comm c, mul_assoc]
  · rw [mul_comm c, mul_assoc]

/-- A sum over the indices below m + n that satisfy P is the sum over those below m plus the sum over those from m on. -/
theorem sum_filter_split {k : ℕ} (m n : ℕ) (hk : m + n = k) (P : Fin k → Prop) [DecidablePred P] (f : Fin k → EReal) :
    ∑ e ∈ Finset.univ.filter P, f e
      = ∑ j ∈ Finset.univ.filter (fun j : Fin m => P ⟨j.val, by omega⟩), f ⟨j.val, by omega⟩
        + ∑ j ∈ Finset.univ.filter (fun j : Fin n => P ⟨m + j.val, by omega⟩), f ⟨m + j.val, by omega⟩ := by
  subst hk
  rw [Finset.sum_filter, Finset.sum_filter, Finset.sum_filter]
  exact Fin.sum_univ_add (fun e => if P e then f e else 0)

/-- A sum over the indices equal to d has the one term at d. -/
theorem sum_filter_some_eq {n : ℕ} (d : Fin n) (f : Fin n → EReal) :
    ∑ j ∈ Finset.univ.filter (fun j : Fin n => some j = some d), f j = f d := by
  have : Finset.univ.filter (fun j : Fin n => some j = some d) = {d} := by
    ext j
    simp
  rw [this, Finset.sum_singleton]

end Cert.LibNonnegFactor
-- ==== Proof.LibGatherScatter.lean ====
/-
  Rows of a rank-2 array selected by a column of integer words, read at an index.

  `x[idx]` of an array `x : [N, C]` at an index column `idx : [E, 1]` is a gather whose result row `e` is
  the row of `x` that the word `idx[e, 0]` names, the word read as a signed integer and clamped into `[0, N − 1]`.
  The sum of the rows of `upd : [E, C]` into the rows of `x : [N, C]` that the same kind of column names is a
  scatter whose combining function is addition: row `p` of the result is row `p` of `x` plus the sum of the rows `e` of
  `upd` whose word, read signed and NOT clamped, is `p`; a row whose word falls outside `[0, N)` is dropped.
  The library states both through lists of axes and list lookups; here their dimension numbers are fixed, the
  lookups are carried out once, and each operation is stated as a plain equation between elements.
-/
import Idealize.ShloMosaic.PureOps.Ideal
import Idealize.ShloMosaic.Lib.ValueIdx
import Idealize.ShloMosaic.Lib.Pipeline.Value

noncomputable section

open scoped BigOperators

namespace Idealize.ShloMosaic.ValueIdx

open Idealize.ShloMosaic

/-! ## The row a word names -/

/-- The row a start-index word selects: read signed, negative to 0, clamped to the last row. -/
def clampRow (N : Nat) (hN : 0 < N) {w : Nat} (v : BitVec w) : Fin N := ⟨min v.toInt.toNat (N - 1), by omega⟩

/-- The row an update lands on: the word read signed, when it is a row; none when it falls outside. -/
def landRow (N : Nat) {w : Nat} (v : BitVec w) : Option (Fin N) :=
  if h : 0 ≤ v.toInt ∧ v.toInt < (N : Int) then some ⟨v.toInt.toNat, by omega⟩ else none

/-- An index that lands is not moved by the clamp. -/
theorem landRow_clampRow {N w : Nat} (hN : 0 < N) (v : BitVec w) (p : Fin N) (h : landRow N v = some p) :
    clampRow N hN v = p := by
  unfold landRow at h
  split at h
  · rename_i hv
    obtain rfl := Option.some.inj h
    refine Fin.ext ?_
    show min v.toInt.toNat (N - 1) = v.toInt.toNat
    omega
  · exact absurd h (by simp)

/-! ## Rows gathered by an index column -/

section GatherRows
variable {α : Type}

/-- The dimension numbers of `x[idx]` for an operand `[N, C]`, an index column `[E, 1]` and the result `[E, C]`: axis 0
    of the operand is indexed and collapsed, axis 1 is taken whole as the result's axis 1. Their conditions `wf` are
    decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result index `(e, q)` reads its one start-index component at `[e, 0]` of the index column. -/
theorem rowGather_siIdx {N E C : Nat}
    (wf : GatherDims.WF ⟨2, ![N, C]⟩ ⟨2, ![E, 1]⟩ ⟨2, ![E, C]⟩ [1] [0] [] [0] [] 1 ![1, C])
    (e : Fin E) (q : Fin C) (c : Fin (rowGatherDims N E C wf).startIndexMap.length) :
    (rowGatherDims N E C wf).siIdx (ix2 e q) c = ix2 e (0 : Fin 1) := by
  funext b; refine Fin.ext ?_
  match b with
  | ⟨0, _⟩ => rfl
  | ⟨1, _⟩ =>
    have := c.isLt
    show c.val = 0
    simp only [List.length_singleton] at this
    omega

/-- On the row axis the slice starts at the word of `[e, 0]`, read signed and clamped into `[0, N − 1]`. -/
theorem rowGather_start0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGatherDims N E C wf).start (ix2 e q) idx 0 = min (idx (ix2 e (0 : Fin 1))).toInt.toNat (N - 1) := by
  unfold GatherDims.start
  rw [dif_pos (show (0 : Fin 2) ∈ (rowGatherDims N E C wf).startIndexMap from List.mem_singleton.mpr rfl)]
  rw [rowGather_siIdx]
  rfl

/-- On the column axis, which the start index does not name, the slice starts at 0. -/
theorem rowGather_start1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGatherDims N E C wf).start (ix2 e q) idx 1 = 0 := by
  unfold GatherDims.start
  rw [dif_neg (show (1 : Fin 2) ∉ (rowGatherDims N E C wf).startIndexMap from
    (by decide : (1 : Fin 2) ∉ [(0 : Fin 2)]))]

/-- The row axis is collapsed: no offset on it. -/
theorem rowGather_offCoord0 {N E C : Nat}
    (wf : GatherDims.WF ⟨2, ![N, C]⟩ ⟨2, ![E, 1]⟩ ⟨2, ![E, C]⟩ [1] [0] [] [0] [] 1 ![1, C])
    (e : Fin E) (q : Fin C) :
    (rowGatherDims N E C wf).offCoord (ix2 e q) 0 = 0 :=
  GatherDims.offCoord_eq_zero _ _ _ (fun h => ((GatherDims.mem_sKept _ _).mp h).1 (List.mem_singleton.mpr rfl))

/-- The column axis is the one kept axis: its offset is the result's column. -/
theorem rowGather_offCoord1 {N E C : Nat}
    (wf : GatherDims.WF ⟨2, ![N, C]⟩ ⟨2, ![E, 1]⟩ ⟨2, ![E, C]⟩ [1] [0] [] [0] [] 1 ![1, C])
    (e : Fin E) (q : Fin C) :
    (rowGatherDims N E C wf).offCoord (ix2 e q) 1 = q.val := by
  unfold GatherDims.offCoord
  rw [dif_pos (show (1 : Fin 2) ∈ (rowGatherDims N E C wf).sKept from
    (GatherDims.mem_sKept _ _).mpr ⟨(by decide : (1 : Fin 2) ∉ [(0 : Fin 2)]), List.not_mem_nil⟩)]
  rfl

/-- THE ROW GATHER READ AT `(e, q)`: column `q` of the operand's row that the word `idx[e, 0]` names, read signed
    and clamped into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q)
      = x (ix2 (clampRow N hN (idx (ix2 e (0 : Fin 1)))) q) := by
  unfold Host.gather
  congr 1
  funext a
  refine Fin.ext ?_
  show (rowGatherDims N E C wf).start (ix2 e q) idx a + (rowGatherDims N E C wf).batchCoord (ix2 e q) a
    + (rowGatherDims N E C wf).offCoord (ix2 e q) a = _
  rw [GatherDims.batchCoord_eq_zero _ _ _ List.not_mem_nil]
  match a with
  | ⟨0, _⟩ =>
    show (rowGatherDims N E C wf).start (ix2 e q) idx 0 + 0 + (rowGatherDims N E C wf).offCoord (ix2 e q) 0 = _
    rw [rowGather_start0, rowGather_offCoord0]
    rfl
  | ⟨1, _⟩ =>
    show (rowGatherDims N E C wf).start (ix2 e q) idx 1 + 0 + (rowGatherDims N E C wf).offCoord (ix2 e q) 1 = _
    rw [rowGather_start1, rowGather_offCoord1]
    simp

end GatherRows

/-! ## Elements of a vector gathered by an index column -/

section GatherVec
variable {α : Type}

/-- The dimension numbers of `x[idx]` for a vector `[N]`, an index column `[E, 1]` and the result `[E]`: the vector's
    one axis is indexed and collapsed. Their conditions `wf` are decided on a program's literal shapes. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result index `e` reads its one start-index component at `[e, 0]` of the index column. -/
theorem vecGather_siIdx {N E : Nat}
    (wf : GatherDims.WF ⟨1, ![N]⟩ ⟨2, ![E, 1]⟩ ⟨1, ![E]⟩ [] [0] [] [0] [] 1 ![1])
    (e : Fin E) (c : Fin (vecGatherDims N E wf).startIndexMap.length) :
    (vecGatherDims N E wf).siIdx (ix1 e) c = ix2 e (0 : Fin 1) := by
  funext b; refine Fin.ext ?_
  match b with
  | ⟨0, _⟩ => rfl
  | ⟨1, _⟩ =>
    have := c.isLt
    show c.val = 0
    simp only [List.length_singleton] at this
    omega

/-- THE VECTOR GATHER READ AT `e`: the vector's element that the word `idx[e, 0]` names, read signed and clamped into
    `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  rw [vecGather_siIdx]
  rfl

end GatherVec

/-! ## Rows added into the rows an index column names -/

section ScatterRows

/-- The dimension numbers of the row sum `x.at[idx].add(upd)` for an operand `[N, C]`, an index column `[E, 1]` and
    updates `[E, C]`: the word of `[e, 0]` names the operand's row, axis 1 of the updates is the window and goes to the
    operand's axis 1. Their conditions `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update index `(e, q)` reads its one start-index component at `[e, 0]` of the index column. -/
theorem rowScatter_siIdx {N E C : Nat}
    (wf : ScatterDims.WF ⟨2, ![N, C]⟩ ⟨2, ![E, 1]⟩ ⟨2, ![E, C]⟩ [1] [0] [0] 1)
    (e : Fin E) (q : Fin C) (c : Fin (rowScatterDims N E C wf).scatterDimsToOperandDims.length) :
    (rowScatterDims N E C wf).siIdx (ix2 e q) c = ix2 e (0 : Fin 1) := by
  funext b; refine Fin.ext ?_
  match b with
  | ⟨0, _⟩ => rfl
  | ⟨1, _⟩ =>
    have := c.isLt
    show c.val = 0
    simp only [List.length_singleton] at this
    omega

/-- On the row axis the window starts at the word of `[e, 0]`, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 0 = (idx (ix2 e (0 : Fin 1))).toInt := by
  unfold ScatterDims.start
  rw [dif_pos (show (0 : Fin 2) ∈ (rowScatterDims N E C wf).scatterDimsToOperandDims from List.mem_singleton.mpr rfl)]
  rw [rowScatter_siIdx]

/-- On the column axis, which the scatter index does not name, the window starts at 0. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 1 = 0 := by
  unfold ScatterDims.start
  rw [dif_neg (show (1 : Fin 2) ∉ (rowScatterDims N E C wf).scatterDimsToOperandDims from
    (by decide : (1 : Fin 2) ∉ [(0 : Fin 2)]))]

/-- The operand's kept axes are the ones that are not the row axis. -/
theorem rowScatter_mem_sKept {N E C : Nat}
    (wf : ScatterDims.WF ⟨2, ![N, C]⟩ ⟨2, ![E, 1]⟩ ⟨2, ![E, C]⟩ [1] [0] [0] 1) (a : Fin 2) :
    a ∈ (rowScatterDims N E C wf).sKept ↔ a ∉ [(0 : Fin 2)] := by
  simp [ScatterDims.sKept, Shape.kept, List.mem_filter, List.mem_finRange]

/-- The row axis is an inserted window axis: the window coordinate on it is 0. -/
theorem rowScatter_window0 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 0 = 0 := by
  unfold ScatterDims.window
  rw [dif_neg (show (0 : Fin 2) ∉ (rowScatterDims N E C wf).sKept from fun h =>
    (rowScatter_mem_sKept wf 0).mp h (List.mem_singleton.mpr rfl))]

/-- The column axis is the one kept axis: the window coordinate on it is the update's column. -/
theorem rowScatter_window1 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 1 = q.val := by
  unfold ScatterDims.window
  rw [dif_pos (show (1 : Fin 2) ∈ (rowScatterDims N E C wf).sKept from
    (rowScatter_mem_sKept wf 1).mpr (by decide : (1 : Fin 2) ∉ [(0 : Fin 2)]))]
  rfl

/-- WHERE UPDATE `(e, q)` LANDS: on column `q` of the row the word `idx[e, 0]` names, when that word read signed is a
    row of the operand; nowhere when it is not. -/
theorem scatter_rows_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).resultIdx? (ix2 e q) idx
      = (landRow N (idx (ix2 e (0 : Fin 1)))).map fun p => ix2 p q := by
  have hs0 := rowScatter_start0 wf idx e q
  have hs1 := rowScatter_start1 wf idx e q
  have hw0 := rowScatter_window0 wf e q
  have hw1 := rowScatter_window1 wf e q
  unfold ScatterDims.resultIdx? landRow
  by_cases h : 0 ≤ (idx (ix2 e (0 : Fin 1))).toInt ∧ (idx (ix2 e (0 : Fin 1))).toInt < (N : Int)
  · have hall : ∀ a : Fin 2, 0 ≤ (rowScatterDims N E C wf).start (ix2 e q) idx a + (rowScatterDims N E C wf).window (ix2 e q) a ∧
        (rowScatterDims N E C wf).start (ix2 e q) idx a + (rowScatterDims N E C wf).window (ix2 e q) a
          < ((⟨2, ![N, C]⟩ : Shape).size a : Int) := by
      intro a
      match a with
      | ⟨0, _⟩ =>
        show 0 ≤ (rowScatterDims N E C wf).start (ix2 e q) idx 0 + (rowScatterDims N E C wf).window (ix2 e q) 0 ∧
          (rowScatterDims N E C wf).start (ix2 e q) idx 0 + (rowScatterDims N E C wf).window (ix2 e q) 0 < (N : Int)
        rw [hs0, hw0]
        omega
      | ⟨1, _⟩ =>
        show 0 ≤ (rowScatterDims N E C wf).start (ix2 e q) idx 1 + (rowScatterDims N E C wf).window (ix2 e q) 1 ∧
          (rowScatterDims N E C wf).start (ix2 e q) idx 1 + (rowScatterDims N E C wf).window (ix2 e q) 1 < (C : Int)
        rw [hs1, hw1]
        have := q.isLt
        omega
    rw [dif_pos hall, dif_pos h]
    simp only [Option.map_some]
    congr 1
    funext a
    refine Fin.ext ?_
    match a with
    | ⟨0, _⟩ =>
      show ((rowScatterDims N E C wf).start (ix2 e q) idx 0 + (rowScatterDims N E C wf).window (ix2 e q) 0).toNat = _
      rw [hs0, hw0]
      simp
    | ⟨1, _⟩ =>
      show ((rowScatterDims N E C wf).start (ix2 e q) idx 1 + (rowScatterDims N E C wf).window (ix2 e q) 1).toNat = _
      rw [hs1, hw1]
      simp
  · rw [dif_neg h, dif_neg]
    · rfl
    · intro hall
      have h0 := hall 0
      rw [hs0, hw0] at h0
      exact h (by
        obtain ⟨h1, h2⟩ := h0
        refine ⟨by omega, ?_⟩
        have : (((⟨2, ![N, C]⟩ : Shape).size 0 : Nat) : Int) = (N : Int) := rfl
        omega)

end ScatterRows

/-! ## The row sum at an index -/

section ScatterAddRows

/-- THE ROW SUM READ AT `(p, q)`: the operand's element plus the sum, over the rows `e` of the updates whose word
    `idx[e, 0]` names row `p`, of the update's element in column `q`. The library's sum runs over update indices
    `(e, q')` that land on `(p, q)`; such an index has `q' = q`, so it is its row `e`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowScatterDims N E C wf) x idx upd (ix2 p q)
      = x (ix2 p q) + ∑ e ∈ Finset.univ.filter (fun e : Fin E => landRow N (idx (ix2 e (0 : Fin 1))) = some p),
          upd (ix2 e q) := by
  unfold Ideal.hostScatterAdd
  congr 1
  symm
  refine Finset.sum_bij (fun e _ => ix2 e q) ?_ ?_ ?_ ?_
  · intro e he
    rw [Finset.mem_filter] at he ⊢
    refine ⟨Finset.mem_univ _, ?_⟩
    rw [scatter_rows_resultIdx, he.2]
    rfl
  · intro e _ e' _ hee
    exact congrFun hee 0
  · intro j hj
    rw [Finset.mem_filter] at hj
    obtain ⟨e, q', rfl⟩ : ∃ (e : Fin E) (q' : Fin C), j = ix2 e q' := ⟨j 0, j 1, eq_ix2 j⟩
    have h := hj.2
    rw [scatter_rows_resultIdx] at h
    cases hl : landRow N (idx (ix2 e (0 : Fin 1))) with
    | none => rw [hl] at h; exact absurd h (by simp)
    | some p' =>
      rw [hl] at h
      have h2 : ix2 p' q' = ix2 p q := Option.some.inj h
      have hp : p' = p := congrFun h2 0
      have hq : q' = q := congrFun h2 1
      subst hp; subst hq
      exact ⟨e, Finset.mem_filter.mpr ⟨Finset.mem_univ _, hl⟩, rfl⟩
  · intro e _
    rfl

end ScatterAddRows

/-! ## A sum of reals into reals is real -/

/-- A finite sum of extended reals that are all reals is a real. -/
theorem sum_coe_real {ι : Type*} (S : Finset ι) (f : ι → EReal) (hf : ∀ j, ∃ r : ℝ, f j = (r : EReal)) :
    ∃ r : ℝ, ∑ j ∈ S, f j = (r : EReal) := by
  classical
  induction S using Finset.induction_on with
  | empty => exact ⟨0, by simp⟩
  | insert a S ha ih =>
    obtain ⟨r1, h1⟩ := hf a
    obtain ⟨r2, h2⟩ := ih
    exact ⟨r1 + r2, by rw [Finset.sum_insert ha, h1, h2, EReal.coe_add]⟩

/-- A scatter with addition, of real updates into a real operand, has real elements — whatever the dimension
    numbers and the indices: each element is a real plus a finite sum of reals. -/
theorem scatterAdd_finite {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) :
    ∀ i, ∃ r : ℝ, Ideal.hostScatterAdd d x idx upd i = (r : EReal) := by
  intro i
  unfold Ideal.hostScatterAdd
  obtain ⟨r1, h1⟩ := hx i
  obtain ⟨r2, h2⟩ := sum_coe_real (Finset.univ.filter (fun j => d.resultIdx? j idx = some i)) upd hu
  exact ⟨r1 + r2, by rw [h1, h2, EReal.coe_add]⟩

end Idealize.ShloMosaic.ValueIdx

end
-- ==== Proof.LibScatterVec.lean ====
/-
  Elements of a vector added into the elements of another vector that a column of integer words names, read at an index.

  The sum `x.at[idx].add(upd)` of the elements of `upd : [E]` into a vector `x : [N]` at an index column
  `idx : [E, 1]` is a scatter whose combining function is addition: element `p` of the result is element `p` of `x`
  plus the sum of the elements `e` of `upd` whose word `idx[e, 0]`, read as a signed integer and NOT clamped, is `p`; an
  element whose word falls outside `[0, N)` is dropped. Beside it: the row a word names when the word spells a small
  natural number.
-/
import proofs.«165974_j30966714204224_2_alg».proof.Proof.LibGatherScatter

noncomputable section

open scoped BigOperators

namespace Idealize.ShloMosaic.ValueIdx

open Idealize.ShloMosaic

/-! ## Words that spell a small natural number -/

/-- A 32-bit word written from a natural number below 2³¹ reads back, signed, as that number. -/
theorem toInt_ofNat32 (n : Nat) (h : n < 2147483648) : (BitVec.ofNat 32 n).toInt = (n : Int) := by
  have e : (BitVec.ofNat 32 n).toNat = n := by
    rw [BitVec.toNat_ofNat]
    exact Nat.mod_eq_of_lt (by omega)
  rw [BitVec.toInt_eq_toNat_of_lt (by rw [e]; omega), e]

/-- Such a word, below `N`, lands on row `n`. -/
theorem landRow_ofNat32 {N : Nat} (n : Nat) (hn : n < N) (h : n < 2147483648) :
    landRow N (BitVec.ofNat 32 n) = some ⟨n, hn⟩ := by
  unfold landRow
  have e := toInt_ofNat32 n h
  rw [dif_pos (by rw [e]; omega)]
  congr 1
  refine Fin.ext ?_
  show (BitVec.ofNat 32 n).toInt.toNat = n
  rw [e]; simp

/-- Such a word, below `N`, is not moved by the clamp. -/
theorem clampRow_ofNat32 {N : Nat} (hN : 0 < N) (n : Nat) (hn : n < N) (h : n < 2147483648) :
    clampRow N hN (BitVec.ofNat 32 n) = ⟨n, hn⟩ :=
  landRow_clampRow hN _ _ (landRow_ofNat32 n hn h)

/-! ## Elements added into the elements an index column names -/

section ScatterVec

/-- The dimension numbers of `x.at[idx].add(upd)` for a vector `[N]`, an index column `[E, 1]` and updates `[E]`: the
    word of `[e, 0]` names the vector's element; the updates have no window axis. Their conditions `wf` are decided on
    a program's literal shapes. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update index `e` reads its one start-index component at `[e, 0]` of the index column. -/
theorem vecScatter_siIdx {N E : Nat}
    (wf : ScatterDims.WF ⟨1, ![N]⟩ ⟨2, ![E, 1]⟩ ⟨1, ![E]⟩ [] [0] [0] 1)
    (e : Fin E) (c : Fin (vecScatterDims N E wf).scatterDimsToOperandDims.length) :
    (vecScatterDims N E wf).siIdx (ix1 e) c = ix2 e (0 : Fin 1) := by
  funext b; refine Fin.ext ?_
  match b with
  | ⟨0, _⟩ => rfl
  | ⟨1, _⟩ =>
    have := c.isLt
    show c.val = 0
    simp only [List.length_singleton] at this
    omega

/-- The window starts at the word of `[e, 0]`, read signed and not clamped. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  rw [vecScatter_siIdx]

/-- The vector's one axis is an inserted window axis: the window coordinate on it is 0. -/
theorem vecScatter_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (show (0 : Fin 1) ∉ (vecScatterDims N E wf).sKept by
    simp [ScatterDims.sKept, Shape.kept, List.mem_filter])]

/-- WHERE UPDATE `e` LANDS: on the element the word `idx[e, 0]` names, when that word read signed is an index of the
    vector; nowhere when it is not. -/
theorem scatter_vec_resultIdx {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).resultIdx? (ix1 e) idx
      = (landRow N (idx (ix2 e (0 : Fin 1)))).map fun p => ix1 p := by
  have hs0 := vecScatter_start0 wf idx e
  have hw0 := vecScatter_window0 wf e
  unfold ScatterDims.resultIdx? landRow
  by_cases h : 0 ≤ (idx (ix2 e (0 : Fin 1))).toInt ∧ (idx (ix2 e (0 : Fin 1))).toInt < (N : Int)
  · have hall : ∀ a : Fin 1, 0 ≤ (vecScatterDims N E wf).start (ix1 e) idx a + (vecScatterDims N E wf).window (ix1 e) a ∧
        (vecScatterDims N E wf).start (ix1 e) idx a + (vecScatterDims N E wf).window (ix1 e) a
          < ((⟨1, ![N]⟩ : Shape).size a : Int) := by
      intro a
      obtain rfl : a = 0 := Subsingleton.elim _ _
      show 0 ≤ (vecScatterDims N E wf).start (ix1 e) idx 0 + (vecScatterDims N E wf).window (ix1 e) 0 ∧
        (vecScatterDims N E wf).start (ix1 e) idx 0 + (vecScatterDims N E wf).window (ix1 e) 0 < (N : Int)
      rw [hs0, hw0]
      omega
    rw [dif_pos hall, dif_pos h]
    simp only [Option.map_some]
    congr 1
    funext a
    obtain rfl : a = 0 := Subsingleton.elim _ _
    refine Fin.ext ?_
    show ((vecScatterDims N E wf).start (ix1 e) idx 0 + (vecScatterDims N E wf).window (ix1 e) 0).toNat = _
    rw [hs0, hw0]
    simp
  · rw [dif_neg h, dif_neg]
    · rfl
    · intro hall
      have h0 := hall 0
      rw [hs0, hw0] at h0
      exact h (by
        obtain ⟨h1, h2⟩ := h0
        refine ⟨by omega, ?_⟩
        have : (((⟨1, ![N]⟩ : Shape).size 0 : Nat) : Int) = (N : Int) := rfl
        omega)

/-- THE SUM READ AT `p`: the vector's element plus the sum, over the updates `e` whose word `idx[e, 0]` names `p`, of
    the update. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (p : Fin N) :
    Ideal.hostScatterAdd (vecScatterDims N E wf) x idx upd (ix1 p)
      = x (ix1 p) + ∑ e ∈ Finset.univ.filter (fun e : Fin E => landRow N (idx (ix2 e (0 : Fin 1))) = some p),
          upd (ix1 e) := by
  unfold Ideal.hostScatterAdd
  congr 1
  symm
  refine Finset.sum_bij (fun e _ => ix1 e) ?_ ?_ ?_ ?_
  · intro e he
    rw [Finset.mem_filter] at he ⊢
    refine ⟨Finset.mem_univ _, ?_⟩
    rw [scatter_vec_resultIdx, he.2]
    rfl
  · intro e _ e' _ hee
    exact congrFun hee 0
  · intro j hj
    rw [Finset.mem_filter] at hj
    obtain ⟨e, rfl⟩ : ∃ e : Fin E, j = ix1 e := ⟨j 0, eq_ix1 j⟩
    have h := hj.2
    rw [scatter_vec_resultIdx] at h
    cases hl : landRow N (idx (ix2 e (0 : Fin 1))) with
    | none => rw [hl] at h; exact absurd h (by simp)
    | some p' =>
      rw [hl] at h
      have h2 : ix1 p' = ix1 p := Option.some.inj h
      have hp : p' = p := congrFun h2 0
      subst hp
      exact ⟨e, Finset.mem_filter.mpr ⟨Finset.mem_univ _, hl⟩, rfl⟩
  · intro e _
    rfl

end ScatterVec

end Idealize.ShloMosaic.ValueIdx

end
-- ==== Proof.LibColumnVec.lean ====
import Idealize.ShloMosaic.Lib.ValueIdx
import Idealize.ShloMosaic.Lib.Pipeline.Value
import Idealize.ShloMosaic.Lib.ValueLayout

/-!
# A vector set as a column, a column read as a vector, one column cut out of a matrix

Four re-layings of `N` numbers, each read at an index written by its coordinates:

* a vector [N] laid out as a column [N, 1] (a `broadcast_in_dim` along axis 0): entry `(n, 0)` is entry `n`;
* a vector [N] laid out as a row [1, N] (a `broadcast_in_dim` along axis 1): entry `(0, n)` is entry `n`;
* a column [N, 1] recast to a vector [N]: entry `n` is entry `(n, 0)`;
* column `k` cut out of a matrix [N, C] as a column [N, 1]: entry `(n, 0)` is entry `(n, k)`.

Nothing here depends on what the entries are.
-/

namespace Cert.LibColumnVec

open Idealize.ShloMosaic Idealize.ShloMosaic.ValueIdx

variable {α : Type}

/-- A vector laid out as a column. -/
theorem columnOfVector_at {N : ℕ} (v : (⟨1, ![N]⟩ : Shape).Idx → α)
    (h : (⟨1, ![N]⟩ : Shape).BroadcastsInDim ⟨2, ![N, 1]⟩ (![0] : Fin 1 → Fin 2)) (n : Fin N) :
    broadcastInDim ⟨2, ![N, 1]⟩ (![0] : Fin 1 → Fin 2) h v (ix2 n 0) = v (ix1 n) :=
  broadcastInDim_apply _ h v (ix2 n 0) (ix1 n) (fun a => by
    match a with
    | ⟨0, _⟩ =>
      show n.val = if N = 1 then 0 else n.val
      by_cases hN : N = 1
      · rw [if_pos hN]; have := n.isLt; omega
      · rw [if_neg hN])

/-- A vector laid out as a row. -/
theorem rowOfVector_at {N : ℕ} (v : (⟨1, ![N]⟩ : Shape).Idx → α)
    (h : (⟨1, ![N]⟩ : Shape).BroadcastsInDim ⟨2, ![1, N]⟩ (![1] : Fin 1 → Fin 2)) (n : Fin N) :
    broadcastInDim ⟨2, ![1, N]⟩ (![1] : Fin 1 → Fin 2) h v (ix2 0 n) = v (ix1 n) :=
  broadcastInDim_apply _ h v (ix2 0 n) (ix1 n) (fun a => by
    match a with
    | ⟨0, _⟩ =>
      show n.val = if N = 1 then 0 else n.val
      by_cases hN : N = 1
      · rw [if_pos hN]; have := n.isLt; omega
      · rw [if_neg hN])

/-- A column recast to a vector: the same numbers in the same order. -/
theorem vectorOfColumn_at {N : ℕ} (A : (⟨2, ![N, 1]⟩ : Shape).Idx → α)
    (h : (⟨2, ![N, 1]⟩ : Shape).ShapeCasts ⟨1, ![N]⟩) (n : Fin N) :
    shapeCast ⟨1, ![N]⟩ A h (ix1 n) = A (ix2 n 0) :=
  shapeCast_apply A h (ix1 n) (ix2 n 0) (by
    rw [Shape.rowMajor_val_two, Shape.rowMajor_val_one]
    show n.val * 1 + 0 = n.val
    omega)

/-- Column `k` of a matrix, cut out as a column. -/
theorem columnOfMatrix_at {N C : ℕ} (k : ℕ) (A : (⟨2, ![N, C]⟩ : Shape).Idx → α)
    (h : (⟨2, ![N, C]⟩ : Shape).Slices ![0, k] ⟨2, ![N, 1]⟩) (n : Fin N) :
    extractStridedSlice ⟨2, ![N, 1]⟩ ![0, k] A h (ix2 n 0)
      = A (ix2 n ⟨k, by have := h.2 1; simpa using this⟩) :=
  slice2_axis1_apply k A h n 0 _ (by simp)

end Cert.LibColumnVec
-- ==== Proof.LibHostBroadcast.lean ====
/-
  Host `broadcast_in_dim` of small shapes read at an index built with `ix2`:
  a column [a,1] spread over the columns of [a,b], a row [1,b] spread over the rows of [a,b]
  (both with the identity dimension map ![0,1]), and a rank-0 scalar spread over any shape.
  Each is the general `broadcastInDim_apply` with the operand's index written out.
-/
import Idealize.ShloMosaic.Lib.ValueIdx
import Idealize.ShloMosaic.Lib.Pipeline.Value

namespace Cert.LibHostBroadcast

open Idealize.ShloMosaic Idealize.ShloMosaic.ValueIdx

variable {α : Type}

/-- A column [a,1] broadcast to [a,b] along the identity map, read at (p,c), is the column at (p,0). -/
theorem column_at {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun d => ?_
  match d with
  | ⟨0, _⟩ =>
    show p.val = if a = 1 then 0 else p.val
    split
    · have := p.isLt; omega
    · rfl
  | ⟨1, _⟩ => rfl

/-- A row [1,b] broadcast to [a,b] along the identity map, read at (p,c), is the row at (0,c). -/
theorem row_at {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun d => ?_
  match d with
  | ⟨0, _⟩ => rfl
  | ⟨1, _⟩ =>
    show c.val = if b = 1 then 0 else c.val
    split
    · have := c.isLt; omega
    · rfl

/-- A rank-0 scalar broadcast to any shape, read anywhere, is the scalar. -/
theorem scalar_at {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun d => d.elim0

end Cert.LibHostBroadcast
-- ==== Proof.LibJoinAt.lean ====
import Idealize.ShloMosaic.Lib.ValueIdx
import Idealize.ShloMosaic.Lib.Pipeline.Value

/-!
# Vectors joined end to end, read at an entry

The rank-1 companion of reading a stack of matrices at an entry: vectors [Wₖ] concatenated into one vector [R].
Entry `j` of the result is entry `p` of piece `k` when the pieces before `k` have `pre` entries together and
`j = pre + p`. The piece is named by an equation `xs[k]? = some ⟨shape, x₁⟩`, decided for a literal list by walking
it; `pre` is a sum over a literal prefix. Nothing here depends on what the entries are; library imports only.
-/

namespace Cert.LibJoinAt

open Idealize.ShloMosaic Idealize.ShloMosaic.ValueIdx

variable {α : Type}

/-- The lengths of the pieces, as the library's reading of a concatenation sums them. -/
abbrev lengths {R : ℕ} (ss : List Shape) : List Nat :=
  ss.map fun s => if h : s.rank = (⟨1, ![R]⟩ : Shape).rank then s.size ((0 : Fin 1).cast h.symm) else 0

/-- Vectors joined end to end, read at `j`: entry `p` of piece `k`, where `j = pre + p` and `pre` is the number of
    entries of the pieces before `k`. -/
theorem joined_at {R W : ℕ} (xs : List ((s : Shape) × (s.Idx → α)))
    (h : Shape.Concatenates (xs.map (·.1)) ⟨1, ![R]⟩ (0 : Fin 1)) (j : Fin R)
    (k : ℕ) (x₁ : (⟨1, ![W]⟩ : Shape).Idx → α) (hxk : xs[k]? = some ⟨⟨1, ![W]⟩, x₁⟩)
    (pre : ℕ) (hpre : (lengths (R := R) ((xs.take k).map (·.1))).sum = pre)
    (p : Fin W) (hj : pre + p.val = j.val) :
    concatenate ⟨1, ![R]⟩ (0 : Fin 1) xs h (ix1 j) = x₁ (ix1 p) := by
  obtain ⟨hk, hxk'⟩ := List.getElem?_eq_some_iff.mp hxk
  exact concatenate_apply_piece (t := ⟨1, ![R]⟩) (0 : Fin 1) xs h (ix1 j) k hk ⟨1, ![W]⟩ x₁ hxk' rfl pre hpre (ix1 p)
    (fun b hb => by
      match b with
      | ⟨0, _⟩ => exact absurd rfl hb) hj

end Cert.LibJoinAt
-- ==== Proof.GcnWords.lean ====
/-
  The integer words that name the rows of a graph convolution over 100000 nodes and 800000 edges.

  A row is fetched by a word read signed, a negative word first raised by the number of rows, the result clamped into the
  table; a row is added into the row a word names only when the word, read signed, is a row — otherwise it is dropped. A word
  that lands on node d therefore does not read negative: the raising leaves it alone and the clamp does not move it, so fetching
  by it reads d. The edge list with one self-loop per node appended is the edge words followed by the words 0 … 99999.
-/
import proofs.«165974_j30966714204224_2_alg».proof.Proof.LibGatherScatter
import proofs.«165974_j30966714204224_2_alg».proof.Proof.LibScatterVec
import proofs.«165974_j30966714204224_2_alg».proof.Proof.LibColumnVec
import proofs.«165974_j30966714204224_2_alg».proof.Proof.LibHostBroadcast
import proofs.«165974_j30966714204224_2_alg».proof.Proof.LibJoinAt
import Idealize.ShloMosaic.PureOps.Ideal.Laws

noncomputable section

open scoped BigOperators

namespace Cert.Gcn

open Idealize.ShloMosaic Idealize.ShloMosaic.ValueIdx

abbrev S0 : Shape := ⟨0, ![]⟩
abbrev Vc (n : ℕ) : Shape := ⟨1, ![n]⟩
abbrev Mx (a b : ℕ) : Shape := ⟨2, ![a, b]⟩

theorem nodes_pos : 0 < 100000 := by omega

/-! ## The words -/

/-- A negative index counts from the end: the word, raised by the number of rows when it reads negative. -/
def wrapWord (v : BitVec 32) : BitVec 32 := Scalar.select (IntOp.cmpi .slt v 0#32) (IntOp.addi v 100000#32) v

/-- A word that does not read negative is left alone. -/
theorem wrapWord_of_nonneg (v : BitVec 32) (h : 0 ≤ v.toInt) : wrapWord v = v := by
  have hs : v.slt 0#32 = false := by
    unfold BitVec.slt
    rw [decide_eq_false_iff_not]
    have : (0#32 : BitVec 32).toInt = 0 := by decide
    omega
  unfold wrapWord Scalar.select IntOp.cmpi
  simp [hs]

/-- A word that lands on a row does not read negative. -/
theorem landRow_nonneg {N w : ℕ} (v : BitVec w) (p : Fin N) (h : landRow N v = some p) : 0 ≤ v.toInt := by
  unfold landRow at h
  split at h
  · rename_i hv; exact hv.1
  · exact absurd h (by simp)

/-- Fetching by a destination word that lands on node p reads node p. -/
theorem clamp_wrap_of_land (v : BitVec 32) (p : Fin 100000) (h : landRow 100000 v = some p) :
    clampRow 100000 nodes_pos (wrapWord v) = p := by
  rw [wrapWord_of_nonneg v (landRow_nonneg v p h)]
  exact landRow_clampRow nodes_pos v p h

/-- The word written from a node number lands on that node. -/
theorem land_node (j : Fin 100000) : landRow 100000 (BitVec.ofNat 32 j.val) = some j :=
  landRow_ofNat32 j.val j.isLt (by have := j.isLt; omega)

/-- Fetching by the word written from a node number reads that node. -/
theorem clamp_wrap_node (j : Fin 100000) : clampRow 100000 nodes_pos (wrapWord (BitVec.ofNat 32 j.val)) = j := by
  rw [wrapWord_of_nonneg _ (by rw [toInt_ofNat32 j.val (by have := j.isLt; omega)]; omega)]
  exact clampRow_ofNat32 nodes_pos j.val j.isLt (by have := j.isLt; omega)

/-- The raising applied to a whole vector of words. -/
def wrapIdx {L : ℕ} (bz : S0.BroadcastsInDim (Vc L) (![] : Fin 0 → Fin (Vc L).rank)) (w : IVec (Vc L) 32) : IVec (Vc L) 32 :=
  select (cmpi .slt w (broadcastInDim (Vc L) ![] bz (constantI S0 32 0#32)))
    (addi w (broadcastInDim (Vc L) ![] bz (constantI S0 32 100000#32))) w

theorem wrapIdx_apply {L : ℕ} (bz : S0.BroadcastsInDim (Vc L) (![] : Fin 0 → Fin (Vc L).rank)) (w : IVec (Vc L) 32)
    (i : (Vc L).Idx) : wrapIdx bz w i = wrapWord (w i) := by
  show Scalar.select (IntOp.cmpi .slt (w i) (broadcastInDim (Vc L) ![] bz (constantI S0 32 0#32) i))
    (IntOp.addi (w i) (broadcastInDim (Vc L) ![] bz (constantI S0 32 100000#32) i)) (w i) = _
  rw [Cert.LibHostBroadcast.scalar_at, Cert.LibHostBroadcast.scalar_at]
  rfl

/-- The edge words followed by the node numbers 0 … 99999: the list with one self-loop per node appended. -/
def withLoops (cat : Shape.Concatenates [Vc 800000, Vc 100000] (Vc 900000) (0 : Fin 1)) (w : IVec (Vc 800000) 32) :
    IVec (Vc 900000) 32 :=
  concatenate (Vc 900000) (0 : Fin 1) [⟨Vc 800000, w⟩, ⟨Vc 100000, iotaInDim (Vc 100000) 32 0⟩] cat

theorem withLoops_edge (cat : Shape.Concatenates [Vc 800000, Vc 100000] (Vc 900000) (0 : Fin 1)) (w : IVec (Vc 800000) 32)
    (j : Fin 800000) : withLoops cat w (ix1 (⟨j.val, by omega⟩ : Fin 900000)) = w (ix1 j) :=
  Cert.LibJoinAt.joined_at (R := 900000) (W := 800000) ([⟨Vc 800000, w⟩, ⟨Vc 100000, iotaInDim (Vc 100000) 32 0⟩] : List ((s : Shape) × (s.Idx → BitVec 32))) cat ⟨j.val, by omega⟩ 0 w rfl 0 rfl j (by simp)

theorem withLoops_loop (cat : Shape.Concatenates [Vc 800000, Vc 100000] (Vc 900000) (0 : Fin 1)) (w : IVec (Vc 800000) 32)
    (j : Fin 100000) : withLoops cat w (ix1 (⟨800000 + j.val, by omega⟩ : Fin 900000)) = BitVec.ofNat 32 j.val :=
  (Cert.LibJoinAt.joined_at (R := 900000) (W := 100000) ([⟨Vc 800000, w⟩, ⟨Vc 100000, iotaInDim (Vc 100000) 32 0⟩] : List ((s : Shape) × (s.Idx → BitVec 32))) cat ⟨800000 + j.val, by omega⟩ 1
    (iotaInDim (Vc 100000) 32 0) rfl 800000 rfl j rfl).trans rfl

/-! ## Two host operations at the ideal values, over any operands -/

/-- The host's accumulating scatter at the ideal values is the exact sum, whatever its operands. -/
theorem hostScatterAdd_ideal {s si su : Shape} {w : ℕ} (d : ScatterDims s si su) (x : FVec Ideal s .f32) (idx : IVec si w)
    (upd : FVec Ideal su .f32) : Host.scatterAdd d x idx upd = Ideal.hostScatterAdd d x idx upd := rfl

/-- The host's inverse square root at the ideal values, read at an index. -/
theorem hostRsqrt_ideal {s : Shape} (x : FVec Ideal s .f32) (i : s.Idx) : Host.rsqrt x i = Ideal.rsqrt (x i) := rfl

/-! ## The layouts -/

/-- A vector of node weights as a column. -/
def colOf (b1 : (Vc 100000).BroadcastsInDim (Mx 100000 1) (![0] : Fin 1 → Fin 2)) (v : FVec Ideal (Vc 100000) .f32) :
    FVec Ideal (Mx 100000 1) .f32 :=
  broadcastInDim (Mx 100000 1) ![0] b1 v

end Cert.Gcn

end
-- ==== Proof.GcnLayerA.lean ====
/-
  Arrangement A of one graph-convolution layer, read at an entry: the features are scaled by the node weights, the scaled
  source rows are summed into the destinations their words land on, the node's own scaled row is added, and the sum is scaled
  by the destination's weight; the bias row is added last.
-/
import proofs.«165974_j30966714204224_2_alg».proof.Proof.GcnWords

noncomputable section

open scoped BigOperators

namespace Cert.Gcn

open Idealize.ShloMosaic Idealize.ShloMosaic.ValueIdx

/-! ## Arrangement A: weights applied to the nodes, before and after the sum -/

/-- The shape facts arrangement A's operations state, at feature width C. -/
structure AFacts (C : ℕ) : Prop where
  bcol : (Mx 100000 1).BroadcastsInDim (Mx 100000 C) (![0, 1] : Fin 2 → Fin 2)
  bzE : S0.BroadcastsInDim (Vc 800000) (![] : Fin 0 → Fin (Vc 800000).rank)
  bE1 : (Vc 800000).BroadcastsInDim (Mx 800000 1) (![0] : Fin 1 → Fin 2)
  gwf : GatherDims.WF (Mx 100000 C) (Mx 800000 1) (Mx 800000 C) [1] [0] [] [0] [] 1 ![1, C]
  bzNC : S0.BroadcastsInDim (Mx 100000 C) (![] : Fin 0 → Fin (Mx 100000 C).rank)
  swf : ScatterDims.WF (Mx 100000 C) (Mx 800000 1) (Mx 800000 C) [1] [0] [0] 1
  brow : (Vc C).BroadcastsInDim (Mx 1 C) (![1] : Fin 1 → Fin 2)
  brows : (Mx 1 C).BroadcastsInDim (Mx 100000 C) (![0, 1] : Fin 2 → Fin 2)

/-- Arrangement A of the layer: mm the node features, dcol the node weights as a column. -/
def layerA {C : ℕ} (k : AFacts C) (mm : FVec Ideal (Mx 100000 C) .f32) (dcol : FVec Ideal (Mx 100000 1) .f32)
    (src dst : IVec (Vc 800000) 32) (b : FVec Ideal (Vc C) .f32) : FVec Ideal (Mx 100000 C) .f32 :=
  addf
    (mulf (broadcastInDim (Mx 100000 C) ![0, 1] k.bcol dcol)
      (addf
        (Host.scatterAdd (rowScatterDims 100000 800000 C k.swf)
          (broadcastInDim (Mx 100000 C) ![] k.bzNC (constant S0 .f32 0x00000000#32))
          (broadcastInDim (Mx 800000 1) ![0] k.bE1 dst)
          (Host.gather (rowGatherDims 100000 800000 C k.gwf) (mulf mm (broadcastInDim (Mx 100000 C) ![0, 1] k.bcol dcol))
            (broadcastInDim (Mx 800000 1) ![0] k.bE1 (wrapIdx k.bzE src))))
        (mulf mm (broadcastInDim (Mx 100000 C) ![0, 1] k.bcol dcol))))
    (broadcastInDim (Mx 100000 C) ![0, 1] k.brows (broadcastInDim (Mx 1 C) ![1] k.brow b))

/-- The node the source word of edge e fetches. -/
def srcNode (src : IVec (Vc 800000) 32) (e : Fin 800000) : Fin 100000 :=
  clampRow 100000 nodes_pos (wrapWord (src (ix1 e)))

/-- The edges whose destination word lands on node d. -/
def into (dst : IVec (Vc 800000) 32) (d : Fin 100000) : Finset (Fin 800000) :=
  Finset.univ.filter fun e : Fin 800000 => landRow 100000 (dst (ix1 e)) = some d

theorem layerA_apply {C : ℕ} (k : AFacts C) (b1 : (Vc 100000).BroadcastsInDim (Mx 100000 1) (![0] : Fin 1 → Fin 2))
    (mm : FVec Ideal (Mx 100000 C) .f32) (w : FVec Ideal (Vc 100000) .f32)
    (src dst : IVec (Vc 800000) 32) (b : FVec Ideal (Vc C) .f32) (d : Fin 100000) (f : Fin C) :
    layerA k mm (colOf b1 w) src dst b (ix2 d f)
      = w (ix1 d) * ((0 + ∑ e ∈ into dst d, mm (ix2 (srcNode src e) f) * w (ix1 (srcNode src e))) + mm (ix2 d f) * w (ix1 d))
        + b (ix1 f) := by
  have hcol : ∀ (p : Fin 100000) (q : Fin C),
      broadcastInDim (Mx 100000 C) ![0, 1] k.bcol (colOf b1 w) (ix2 p q) = w (ix1 p) := fun p q => by
    rw [Cert.LibHostBroadcast.column_at]
    exact Cert.LibColumnVec.columnOfVector_at w b1 p
  have hbias : broadcastInDim (Mx 100000 C) ![0, 1] k.brows (broadcastInDim (Mx 1 C) ![1] k.brow b) (ix2 d f) = b (ix1 f) := by
    rw [Cert.LibHostBroadcast.row_at]
    exact Cert.LibColumnVec.rowOfVector_at b k.brow f
  have hzero : broadcastInDim (Mx 100000 C) ![] k.bzNC (constant (F := Ideal) S0 .f32 0x00000000#32) (ix2 d f) = 0 := by
    rw [Cert.LibHostBroadcast.scalar_at, constant_apply]
    exact Ideal.ofBits_zero_f32
  have hsc : Host.scatterAdd (rowScatterDims 100000 800000 C k.swf)
        (broadcastInDim (Mx 100000 C) ![] k.bzNC (constant (F := Ideal) S0 .f32 0x00000000#32))
        (broadcastInDim (Mx 800000 1) ![0] k.bE1 dst)
        (Host.gather (rowGatherDims 100000 800000 C k.gwf) (mulf mm (broadcastInDim (Mx 100000 C) ![0, 1] k.bcol (colOf b1 w)))
          (broadcastInDim (Mx 800000 1) ![0] k.bE1 (wrapIdx k.bzE src))) (ix2 d f)
      = 0 + ∑ e ∈ into dst d, mm (ix2 (srcNode src e) f) * w (ix1 (srcNode src e)) := by
    rw [hostScatterAdd_ideal, scatterAdd_rows_apply, hzero]
    refine congrArg (fun s : EReal => 0 + s) ?_
    unfold into
    refine Finset.sum_congr (Finset.filter_congr fun e _ => ?_) fun e _ => ?_
    · rw [Cert.LibColumnVec.columnOfVector_at dst k.bE1 e]
    · rw [gather_rows_apply nodes_pos, Cert.LibColumnVec.columnOfVector_at (wrapIdx k.bzE src) k.bE1 e, wrapIdx_apply,
        mulf_apply, hcol]
      rfl
  unfold layerA
  rw [addf_apply, mulf_apply, addf_apply, mulf_apply, hsc, hcol, hbias]

end Cert.Gcn

end
-- ==== Proof.GcnLayerB.lean ====
/-
  Arrangement B of one graph-convolution layer, read at an entry: one self-loop per node is appended to the edge list and every
  entry of the extended list brings its source's feature row times the product of its two ends' weights into the destination
  its word lands on; the bias row is added last.
-/
import proofs.«165974_j30966714204224_2_alg».proof.Proof.GcnWords

noncomputable section

open scoped BigOperators

namespace Cert.Gcn

open Idealize.ShloMosaic Idealize.ShloMosaic.ValueIdx

/-! ## Arrangement B: one weight per entry of the edge list with self-loops -/

/-- The shape facts arrangement B's operations state, at feature width C. -/
structure BFacts (C : ℕ) : Prop where
  cat : Shape.Concatenates [Vc 800000, Vc 100000] (Vc 900000) (0 : Fin 1)
  bzE : S0.BroadcastsInDim (Vc 900000) (![] : Fin 0 → Fin (Vc 900000).rank)
  bE1 : (Vc 900000).BroadcastsInDim (Mx 900000 1) (![0] : Fin 1 → Fin 2)
  gvwf : GatherDims.WF (Vc 100000) (Mx 900000 1) (Vc 900000) [] [0] [] [0] [] 1 ![1]
  gwf : GatherDims.WF (Mx 100000 C) (Mx 900000 1) (Mx 900000 C) [1] [0] [] [0] [] 1 ![1, C]
  bEC : (Mx 900000 1).BroadcastsInDim (Mx 900000 C) (![0, 1] : Fin 2 → Fin 2)
  bzNC : S0.BroadcastsInDim (Mx 100000 C) (![] : Fin 0 → Fin (Mx 100000 C).rank)
  swf : ScatterDims.WF (Mx 100000 C) (Mx 900000 1) (Mx 900000 C) [1] [0] [0] 1
  brow : (Vc C).BroadcastsInDim (Mx 1 C) (![1] : Fin 1 → Fin 2)
  brows : (Mx 1 C).BroadcastsInDim (Mx 100000 C) (![0, 1] : Fin 2 → Fin 2)

/-- Arrangement B of the layer: wS and wD the node weights as the two ends read them (the same vector, computed twice). -/
def layerB {C : ℕ} (r : BFacts C) (h : FVec Ideal (Mx 100000 C) .f32) (wS wD : FVec Ideal (Vc 100000) .f32)
    (src dst : IVec (Vc 800000) 32) (b : FVec Ideal (Vc C) .f32) : FVec Ideal (Mx 100000 C) .f32 :=
  addf
    (Host.scatterAdd (rowScatterDims 100000 900000 C r.swf)
      (broadcastInDim (Mx 100000 C) ![] r.bzNC (constant S0 .f32 0x00000000#32))
      (broadcastInDim (Mx 900000 1) ![0] r.bE1 (withLoops r.cat dst))
      (mulf
        (Host.gather (rowGatherDims 100000 900000 C r.gwf) h
          (broadcastInDim (Mx 900000 1) ![0] r.bE1 (wrapIdx r.bzE (withLoops r.cat src))))
        (broadcastInDim (Mx 900000 C) ![0, 1] r.bEC
          (broadcastInDim (Mx 900000 1) ![0] r.bE1
            (mulf
              (Host.gather (vecGatherDims 100000 900000 r.gvwf) wS
                (broadcastInDim (Mx 900000 1) ![0] r.bE1 (wrapIdx r.bzE (withLoops r.cat src))))
              (Host.gather (vecGatherDims 100000 900000 r.gvwf) wD
                (broadcastInDim (Mx 900000 1) ![0] r.bE1 (wrapIdx r.bzE (withLoops r.cat dst)))))))))
    (broadcastInDim (Mx 100000 C) ![0, 1] r.brows (broadcastInDim (Mx 1 C) ![1] r.brow b))

/-- Arrangement B read at an entry, over the extended list: each entry that lands on d brings its source's feature times
    the product of its two ends' weights. -/
theorem layerB_apply {C : ℕ} (r : BFacts C) (h : FVec Ideal (Mx 100000 C) .f32) (w : FVec Ideal (Vc 100000) .f32)
    (src dst : IVec (Vc 800000) 32) (b : FVec Ideal (Vc C) .f32) (d : Fin 100000) (f : Fin C) :
    layerB r h w w src dst b (ix2 d f)
      = (0 + ∑ e ∈ Finset.univ.filter (fun e : Fin 900000 => landRow 100000 (withLoops r.cat dst (ix1 e)) = some d),
            h (ix2 (clampRow 100000 nodes_pos (wrapWord (withLoops r.cat src (ix1 e)))) f)
              * (w (ix1 (clampRow 100000 nodes_pos (wrapWord (withLoops r.cat src (ix1 e)))))
                  * w (ix1 (clampRow 100000 nodes_pos (wrapWord (withLoops r.cat dst (ix1 e)))))))
        + b (ix1 f) := by
  have hbias : broadcastInDim (Mx 100000 C) ![0, 1] r.brows (broadcastInDim (Mx 1 C) ![1] r.brow b) (ix2 d f) = b (ix1 f) := by
    rw [Cert.LibHostBroadcast.row_at]
    exact Cert.LibColumnVec.rowOfVector_at b r.brow f
  have hzero : broadcastInDim (Mx 100000 C) ![] r.bzNC (constant (F := Ideal) S0 .f32 0x00000000#32) (ix2 d f) = 0 := by
    rw [Cert.LibHostBroadcast.scalar_at, constant_apply]
    exact Ideal.ofBits_zero_f32
  unfold layerB
  rw [addf_apply, hbias]
  rw [hostScatterAdd_ideal, scatterAdd_rows_apply, hzero]
  refine congrArg (fun s : EReal => (0 + s) + b (ix1 f)) ?_
  refine Finset.sum_congr (Finset.filter_congr fun e _ => ?_) fun e _ => ?_
  · rw [Cert.LibColumnVec.columnOfVector_at (withLoops r.cat dst) r.bE1 e]
  · simp only [mulf_apply, gather_rows_apply nodes_pos, gather_vec_apply nodes_pos, Cert.LibColumnVec.columnOfVector_at,
      Cert.LibHostBroadcast.column_at, wrapIdx_apply]

end Cert.Gcn

end
-- ==== Proof.GcnLayer.lean ====
/-
  One graph-convolution layer over 100000 nodes and 800000 edges, in two arrangements, read at an entry and shown equal.

  The edges are two vectors of 32-bit words, sources and destinations. A row is fetched by a word read signed, a negative
  word first raised by the number of rows, the result clamped into the table; a row is added into the row a word names only
  when the word, read signed, is a row — otherwise it is dropped. An edge whose destination word lands on node d therefore
  has a non-negative destination word, which the raising leaves alone and the clamp does not move: fetching by it gives d.

  Arrangement A scales the features by the node weights, sums the scaled source rows into the destinations, adds the node's
  own scaled row, and scales by the destination's weight. Arrangement B appends one self-loop per node to the edge list
  (the words 0 … 99999) and gives every entry of the extended list the product of its two ends' weights. With weights that
  are non-negative reals the two are the same array, whatever the features are (the layer identity of LibNonnegFactor).
-/
import proofs.«165974_j30966714204224_2_alg».proof.Proof.LibNonnegFactor
import proofs.«165974_j30966714204224_2_alg».proof.Proof.GcnLayerA
import proofs.«165974_j30966714204224_2_alg».proof.Proof.GcnLayerB

noncomputable section

open scoped BigOperators

namespace Cert.Gcn

open Idealize.ShloMosaic Idealize.ShloMosaic.ValueIdx Cert.LibNonnegFactor

/-! ## The two arrangements are one array -/

/-- With node weights that are non-negative and finite, arrangement A is arrangement B. -/
theorem layerA_eq_layerB {C : ℕ} (k : AFacts C) (r : BFacts C)
    (b1 : (Vc 100000).BroadcastsInDim (Mx 100000 1) (![0] : Fin 1 → Fin 2))
    (h : FVec Ideal (Mx 100000 C) .f32) (w : FVec Ideal (Vc 100000) .f32)
    (hw : ∀ d : Fin 100000, 0 ≤ w (ix1 d) ∧ w (ix1 d) ≠ ⊤)
    (src dst : IVec (Vc 800000) 32) (b : FVec Ideal (Vc C) .f32) :
    layerA k h (colOf b1 w) src dst b = layerB r h w w src dst b := by
  funext i
  obtain ⟨d, f, rfl⟩ : ∃ (d : Fin 100000) (f : Fin C), i = ix2 d f := ⟨i 0, i 1, eq_ix2 i⟩
  rw [layerA_apply, layerB_apply, sum_filter_split 800000 100000 rfl]
  -- the edges: entry j of the extended list is edge j, and its destination word lands on d, so it fetches d
  have hedges : ∑ j ∈ Finset.univ.filter (fun j : Fin 800000 =>
          landRow 100000 (withLoops r.cat dst (ix1 (⟨j.val, by omega⟩ : Fin 900000))) = some d),
        h (ix2 (clampRow 100000 nodes_pos (wrapWord (withLoops r.cat src (ix1 (⟨j.val, by omega⟩ : Fin 900000))))) f)
          * (w (ix1 (clampRow 100000 nodes_pos (wrapWord (withLoops r.cat src (ix1 (⟨j.val, by omega⟩ : Fin 900000))))))
              * w (ix1 (clampRow 100000 nodes_pos (wrapWord (withLoops r.cat dst (ix1 (⟨j.val, by omega⟩ : Fin 900000)))))))
      = ∑ e ∈ into dst d, h (ix2 (srcNode src e) f) * (w (ix1 (srcNode src e)) * w (ix1 d)) := by
    unfold into
    refine Finset.sum_congr (Finset.filter_congr fun j _ => by rw [withLoops_edge]) fun j hj => ?_
    rw [Finset.mem_filter] at hj
    rw [withLoops_edge, withLoops_edge, clamp_wrap_of_land _ d hj.2]
    rfl
  -- the self-loops: entry 800000 + j is the word of node j, which lands on j and fetches j
  have hloops : ∑ j ∈ Finset.univ.filter (fun j : Fin 100000 =>
          landRow 100000 (withLoops r.cat dst (ix1 (⟨800000 + j.val, by omega⟩ : Fin 900000))) = some d),
        h (ix2 (clampRow 100000 nodes_pos (wrapWord (withLoops r.cat src (ix1 (⟨800000 + j.val, by omega⟩ : Fin 900000))))) f)
          * (w (ix1 (clampRow 100000 nodes_pos (wrapWord (withLoops r.cat src (ix1 (⟨800000 + j.val, by omega⟩ : Fin 900000))))))
              * w (ix1 (clampRow 100000 nodes_pos (wrapWord (withLoops r.cat dst (ix1 (⟨800000 + j.val, by omega⟩ : Fin 900000)))))))
      = h (ix2 d f) * (w (ix1 d) * w (ix1 d)) := by
    rw [← sum_filter_some_eq d fun j => h (ix2 j f) * (w (ix1 j) * w (ix1 j))]
    refine Finset.sum_congr (Finset.filter_congr fun j _ => by rw [withLoops_loop, land_node]) fun j _ => ?_
    rw [withLoops_loop, withLoops_loop, clamp_wrap_node]
  rw [hedges, hloops]
  exact layer_core (w (ix1 d)) (hw d).1 (hw d).2 (into dst d) (fun e => h (ix2 (srcNode src e) f))
    (fun e => w (ix1 (srcNode src e))) (h (ix2 d f)) (b (ix1 f))

end Cert.Gcn

end
-- ==== Proof.GcnWeights.lean ====
/-
  The node weights of the graph convolution: for node d, one over the square root of its degree — the number of edges whose
  destination word lands on d, plus one for the self-loop — guarded by a test that the degree is positive, zero otherwise.

  Whatever the degree is as an extended real, the guarded value is a non-negative finite number: where the degree is +inf the
  inverse square root is 0, where it is a positive real it is a positive real, and everywhere else the guard answers 0. That is
  all the layer identity asks of the weights, so the degrees themselves are never counted.
-/
import proofs.«165974_j30966714204224_2_alg».proof.Proof.GcnWords

noncomputable section

namespace Cert.Gcn

open Idealize.ShloMosaic Idealize.ShloMosaic.ValueIdx

/-- The float comparison at the ideal values is the comparison of the extended reals. -/
theorem cmpf_ideal (p : CmpFPredicate) (x y : Ideal .f32) : FloatOps.cmpf (F := Ideal) (φ := .f32) p x y = Ideal.cmp p x y := rfl

/-- The guarded inverse square root of any extended real is non-negative and finite. -/
theorem guarded_rsqrt_ok (x : EReal) :
    0 ≤ Scalar.select (Ideal.cmp .ogt x 0) (Ideal.rsqrt x) (0 : EReal)
      ∧ Scalar.select (Ideal.cmp .ogt x 0) (Ideal.rsqrt x) (0 : EReal) ≠ ⊤ := by
  unfold Scalar.select Ideal.cmp
  by_cases h : (0 : EReal) < x
  · have hc : BitVec.ofBool (decide ((0 : EReal) < x)) = 1 := by simp [h]
    simp only [hc, if_true]
    induction x using EReal.rec with
    | bot => exact absurd h (by simp)
    | top => exact ⟨le_refl _, EReal.zero_ne_top⟩
    | coe r =>
      have hr : 0 < r := by exact_mod_cast h
      have e : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [e]
      exact ⟨by exact_mod_cast inv_nonneg.mpr (Real.sqrt_nonneg r), EReal.coe_ne_top _⟩
  · have hc : BitVec.ofBool (decide ((0 : EReal) < x)) ≠ 1 := by simp [h]
    simp only [hc, if_false]
    exact ⟨le_refl _, EReal.zero_ne_top⟩

/-- The shape facts the weights' operations state. -/
structure WFacts : Prop where
  cat : Shape.Concatenates [Vc 800000, Vc 100000] (Vc 900000) (0 : Fin 1)
  bz9 : S0.BroadcastsInDim (Vc 900000) (![] : Fin 0 → Fin (Vc 900000).rank)
  bzN : S0.BroadcastsInDim (Vc 100000) (![] : Fin 0 → Fin (Vc 100000).rank)
  b91 : (Vc 900000).BroadcastsInDim (Mx 900000 1) (![0] : Fin 1 → Fin 2)
  swf : ScatterDims.WF (Vc 100000) (Mx 900000 1) (Vc 900000) [] [0] [0] 1

/-- The degrees: a one for every entry of the destination list with self-loops, summed into the node its word lands on. -/
def degrees (q : WFacts) (dst : IVec (Vc 800000) 32) : FVec Ideal (Vc 100000) .f32 :=
  Host.scatterAdd (vecScatterDims 100000 900000 q.swf)
    (broadcastInDim (Vc 100000) ![] q.bzN (constant S0 .f32 0x00000000#32))
    (broadcastInDim (Mx 900000 1) ![0] q.b91 (withLoops q.cat dst))
    (broadcastInDim (Vc 900000) ![] q.bz9 (constant S0 .f32 0x3F800000#32))

/-- The node weights: the inverse square root of the degree where the degree is positive, zero elsewhere. -/
def weights (q : WFacts) (dst : IVec (Vc 800000) 32) : FVec Ideal (Vc 100000) .f32 :=
  select (cmpf .ogt (degrees q dst) (broadcastInDim (Vc 100000) ![] q.bzN (constant S0 .f32 0x00000000#32)))
    (Host.rsqrt (degrees q dst))
    (broadcastInDim (Vc 100000) ![] q.bzN (id (constant S0 .f32 0x00000000#32)))

/-- Every node weight is a non-negative finite number. -/
theorem weights_ok (q : WFacts) (dst : IVec (Vc 800000) 32) (d : Fin 100000) :
    0 ≤ weights q dst (ix1 d) ∧ weights q dst (ix1 d) ≠ ⊤ := by
  have hz : broadcastInDim (Vc 100000) ![] q.bzN (constant (F := Ideal) S0 .f32 0x00000000#32) (ix1 d) = 0 := by
    rw [Cert.LibHostBroadcast.scalar_at, constant_apply]
    exact Ideal.ofBits_zero_f32
  have e : weights q dst (ix1 d)
      = Scalar.select (Ideal.cmp .ogt (degrees q dst (ix1 d)) 0) (Ideal.rsqrt (degrees q dst (ix1 d))) (0 : EReal) := by
    unfold weights
    rw [select_apply, cmpf_apply, hostRsqrt_ideal, cmpf_ideal, hz]
    simp only [id, hz]
  rw [e]
  exact guarded_rsqrt_ok _

end Cert.Gcn

end
-- ==== Proof.GcnSpec.lean ====
/-
  The two-layer graph convolution as one function of its six arguments, in the two arrangements.

  Node features x [100000, 128], an edge list of two rows of words, and two dense layers (W1, b1), (W2, b2). The features are
  multiplied by W1, aggregated over the graph with the node weights, clamped at zero, multiplied by W2 and aggregated again.
  Both arrangements take the same two products, the same weights and the same clamp; they differ only in how a layer
  aggregates, and one layer's two arrangements are one array (GcnLayer) because the weights are non-negative finite numbers
  (GcnWeights). So the two networks are one function.
-/
import proofs.«165974_j30966714204224_2_alg».proof.Proof.GcnLayer
import proofs.«165974_j30966714204224_2_alg».proof.Proof.GcnWeights

noncomputable section

namespace Cert.Gcn

open Idealize.ShloMosaic Idealize.ShloMosaic.ValueIdx

/-- The shape facts of cutting the two rows out of the edge list. -/
structure EdgeFacts : Prop where
  sl0 : (Mx 2 800000).Slices ![0, 0] (Mx 1 800000)
  sl1 : (Mx 2 800000).Slices ![1, 0] (Mx 1 800000)
  sc : (Mx 1 800000).ShapeCasts (Vc 800000)

/-- The source words: row 0 of the edge list. -/
def srcOf (ef : EdgeFacts) (ei : IVec (Mx 2 800000) 32) : IVec (Vc 800000) 32 :=
  shapeCast (Vc 800000) (extractStridedSlice (Mx 1 800000) ![0, 0] ei ef.sl0) ef.sc

/-- The destination words: row 1 of the edge list. -/
def dstOf (ef : EdgeFacts) (ei : IVec (Mx 2 800000) 32) : IVec (Vc 800000) 32 :=
  shapeCast (Vc 800000) (extractStridedSlice (Mx 1 800000) ![1, 0] ei ef.sl1) ef.sc

/-- The clamp at zero between the layers. -/
def clampZero (bz : S0.BroadcastsInDim (Mx 100000 256) (![] : Fin 0 → Fin (Mx 100000 256).rank))
    (x : FVec Ideal (Mx 100000 256) .f32) : FVec Ideal (Mx 100000 256) .f32 :=
  maximumf x (broadcastInDim (Mx 100000 256) ![] bz (constant S0 .f32 0x00000000#32))

/-- The first product, x · W1. -/
def product1 (x : FVec Ideal (Mx 100000 128) .f32) (W : FVec Ideal (Mx 128 256) .f32) : FVec Ideal (Mx 100000 256) .f32 :=
  Host.dotGeneral (DotDims.plain 100000 128 256) none x W

/-- The second product, h · W2. -/
def product2 (x : FVec Ideal (Mx 100000 256) .f32) (W : FVec Ideal (Mx 256 64) .f32) : FVec Ideal (Mx 100000 64) .f32 :=
  Host.dotGeneral (DotDims.plain 100000 256 64) none x W

/-- The network with arrangement A in both layers. -/
def netA (ef : EdgeFacts) (q : WFacts) (b1 : (Vc 100000).BroadcastsInDim (Mx 100000 1) (![0] : Fin 1 → Fin 2))
    (k1 : AFacts 256) (k2 : AFacts 64) (bz : S0.BroadcastsInDim (Mx 100000 256) (![] : Fin 0 → Fin (Mx 100000 256).rank))
    (x : FVec Ideal (Mx 100000 128) .f32) (ei : IVec (Mx 2 800000) 32) (W1 : FVec Ideal (Mx 128 256) .f32)
    (bias1 : FVec Ideal (Vc 256) .f32) (W2 : FVec Ideal (Mx 256 64) .f32) (bias2 : FVec Ideal (Vc 64) .f32) :
    FVec Ideal (Mx 100000 64) .f32 :=
  layerA k2
    (product2 (clampZero bz (layerA k1 (product1 x W1) (colOf b1 (weights q (dstOf ef ei))) (srcOf ef ei) (dstOf ef ei) bias1)) W2)
    (colOf b1 (weights q (dstOf ef ei))) (srcOf ef ei) (dstOf ef ei) bias2

/-- The network with arrangement B in both layers. -/
def netB (ef : EdgeFacts) (q : WFacts) (r1 : BFacts 256) (r2 : BFacts 64)
    (bz : S0.BroadcastsInDim (Mx 100000 256) (![] : Fin 0 → Fin (Mx 100000 256).rank))
    (x : FVec Ideal (Mx 100000 128) .f32) (ei : IVec (Mx 2 800000) 32) (W1 : FVec Ideal (Mx 128 256) .f32)
    (bias1 : FVec Ideal (Vc 256) .f32) (W2 : FVec Ideal (Mx 256 64) .f32) (bias2 : FVec Ideal (Vc 64) .f32) :
    FVec Ideal (Mx 100000 64) .f32 :=
  layerB r2
    (product2 (clampZero bz (layerB r1 (product1 x W1) (weights q (dstOf ef ei)) (weights q (dstOf ef ei)) (srcOf ef ei) (dstOf ef ei) bias1)) W2)
    (weights q (dstOf ef ei)) (weights q (dstOf ef ei)) (srcOf ef ei) (dstOf ef ei) bias2

/-- The two networks are one function of the arguments. -/
theorem netA_eq_netB (ef : EdgeFacts) (q : WFacts) (b1 : (Vc 100000).BroadcastsInDim (Mx 100000 1) (![0] : Fin 1 → Fin 2))
    (k1 : AFacts 256) (k2 : AFacts 64) (r1 : BFacts 256) (r2 : BFacts 64)
    (bz : S0.BroadcastsInDim (Mx 100000 256) (![] : Fin 0 → Fin (Mx 100000 256).rank))
    (x : FVec Ideal (Mx 100000 128) .f32) (ei : IVec (Mx 2 800000) 32) (W1 : FVec Ideal (Mx 128 256) .f32)
    (bias1 : FVec Ideal (Vc 256) .f32) (W2 : FVec Ideal (Mx 256 64) .f32) (bias2 : FVec Ideal (Vc 64) .f32) :
    netA ef q b1 k1 k2 bz x ei W1 bias1 W2 bias2 = netB ef q r1 r2 bz x ei W1 bias1 W2 bias2 := by
  unfold netA netB
  rw [layerA_eq_layerB k1 r1 b1 _ _ (weights_ok q _), layerA_eq_layerB k2 r2 b1 _ _ (weights_ok q _)]

end Cert.Gcn

end
-- ==== Proof.KEntry.lean ====
/-
  The idealized kernel's first three stretches of host operations, read at the buffers the later segments use: the source and
  destination words cut out of the edge list, and every argument array, which no operation writes.
-/
import proofs.«165974_j30966714204224_2_alg».proof.Proof.Gen.KernelIdeal.Frame
import proofs.«165974_j30966714204224_2_alg».proof.Proof.GcnSpec

set_option maxRecDepth 16384

noncomputable section

namespace Cert.KernelIdeal.KValue

open Cert.KernelIdeal Cert.KernelIdeal.Gen Cert.Gcn
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The shape facts, from the program's -/

theorem edgeFacts : EdgeFacts := ⟨Facts₀.slices_S2x800000_S1x800000_0_0, Facts₀.slices_S2x800000_S1x800000_1_0, Facts₀.shapeCasts_S1x800000_S800000⟩
theorem weightFacts : WFacts :=
  ⟨Facts₀.concatenates_S800000_S100000_S900000_d0, Facts₀.bcast_S_S900000, Facts₀.bcast_S_S100000, Facts₀.bcast_S900000_S900000x1_0,
    Facts₀.scatter_S100000_S900000x1_S900000_n_0_0_1_wf⟩
theorem layer1Facts : AFacts 256 :=
  ⟨Facts₀.bcast_S100000x1_S100000x256_0_1, Facts₀.bcast_S_S800000, Facts₀.bcast_S800000_S800000x1_0,
    Facts₀.gather_S100000x256_S800000x1_S800000x256_1_0_n_n_0_1_1256_wf, Facts₀.bcast_S_S100000x256,
    Facts₀.scatter_S100000x256_S800000x1_S800000x256_1_0_0_1_wf, Facts₀.bcast_S256_S1x256_1, Facts₀.bcast_S1x256_S100000x256_0_1⟩
theorem layer2Facts : AFacts 64 :=
  ⟨Facts₀.bcast_S100000x1_S100000x64_0_1, Facts₀.bcast_S_S800000, Facts₀.bcast_S800000_S800000x1_0,
    Facts₀.gather_S100000x64_S800000x1_S800000x64_1_0_n_n_0_1_164_wf, Facts₀.bcast_S_S100000x64,
    Facts₀.scatter_S100000x64_S800000x1_S800000x64_1_0_0_1_wf, Facts₀.bcast_S64_S1x64_1, Facts₀.bcast_S1x64_S100000x64_0_1⟩

/-! ## The first three stretches: the words and the weight column, and the arguments untouched -/

theorem entry0_src (c : Dev nD) :
    W3 m ρ c (Proc.devRef .tc main_v1) = srcOf edgeFacts (m ((c : Thread nD τ).loc main_arg1)) := by
  show after hostOps0_2 (after hostOps0_1 (after hostOps0 (W0 m ρ c))) (Proc.devRef .tc main_v1) = _
  after_results
  rfl

theorem entry0_dst (c : Dev nD) :
    W3 m ρ c (Proc.devRef .tc main_v3) = dstOf edgeFacts (m ((c : Thread nD τ).loc main_arg1)) := by
  show after hostOps0_2 (after hostOps0_1 (after hostOps0 (W0 m ρ c))) (Proc.devRef .tc main_v3) = _
  after_results
  rfl

theorem entry0_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  after_results
theorem entry0_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  after_results
theorem entry0_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  after_results
theorem entry0_arg4 (c : Dev nD) : W3 m ρ c (Proc.devRef .tc main_arg4) = m ((c : Thread nD τ).loc main_arg4) := by
  show after hostOps0_2 (after hostOps0_1 (after hostOps0 (W0 m ρ c))) (Proc.devRef .tc main_arg4) = _
  after_results
theorem entry0_arg5 (c : Dev nD) : W3 m ρ c (Proc.devRef .tc main_arg5) = m ((c : Thread nD τ).loc main_arg5) := by
  show after hostOps0_2 (after hostOps0_1 (after hostOps0 (W0 m ρ c))) (Proc.devRef .tc main_arg5) = _
  after_results

end Cert.KernelIdeal.KValue

end
-- ==== Proof.KStretches.lean ====
/-
  The idealized kernel's stretches of host operations, each read from ARBITRARY starting contents V.

  A stretch rewrites the buffer contents operation by operation; what it leaves in one buffer is that buffer's operations
  composed over what the stretch found. Stated over any V the terms stay small. The three stretches before the first product
  leave the node weights as a column; the two between the products leave the clamped first layer in arrangement A; the last
  leaves the second layer in arrangement A.
-/
import proofs.«165974_j30966714204224_2_alg».proof.Proof.KEntry

set_option maxRecDepth 16384

noncomputable section

open scoped BigOperators

namespace Cert.KernelIdeal.KValue

open Cert.KernelIdeal Cert.KernelIdeal.Gen Cert.Gcn
open Idealize.ShloMosaic Idealize.ShloMosaic.TcCoe Idealize.ShloMosaic.StableHlo Idealize.SL.Sem

variable (V : Valuation τ sig (Elt Ideal))

/-! ## Before the first product: the weights as a column -/

theorem degree_positive :
    after hostOps0 V (Proc.devRef .tc main_v11)
      = cmpf .ogt (degrees weightFacts (dstOf edgeFacts (V (Proc.devRef .tc main_arg1))))
          (broadcastInDim S100000 ![] Facts₀.bcast_S_S100000 (constant S_ .f32 0x00000000#32)) := by
  after_results
  rfl

theorem degree_rsqrt :
    after hostOps0 V (Proc.devRef .tc main_v12)
      = Host.rsqrt (degrees weightFacts (dstOf edgeFacts (V (Proc.devRef .tc main_arg1)))) := by
  after_results
  rfl

theorem zero_scalar :
    after hostOps0 V (Proc.devRef .tc main_cst_2) = constant (F := Ideal) S_ .f32 0x00000000#32 := by
  after_results

theorem guard_stretch :
    after hostOps0_1 V (Proc.devRef .tc main_v13)
      = select (V (Proc.devRef .tc main_v11)) (V (Proc.devRef .tc main_v12))
          (broadcastInDim S100000 ![] Facts₀.bcast_S_S100000 (id (V (Proc.devRef .tc main_cst_2)))) := by
  after_results
  rfl

theorem column_stretch :
    after hostOps0_2 V (Proc.devRef .tc main_v14) = colOf Facts₀.bcast_S100000_S100000x1_0 (V (Proc.devRef .tc main_v13)) := by
  after_results
  rfl

/-- The three stretches before the first product leave the node weights, as a column, in the buffer both layers read. -/
theorem weights_column :
    after hostOps0_2 (after hostOps0_1 (after hostOps0 V)) (Proc.devRef .tc main_v14)
      = colOf Facts₀.bcast_S100000_S100000x1_0 (weights weightFacts (dstOf edgeFacts (V (Proc.devRef .tc main_arg1)))) := by
  rw [column_stretch, guard_stretch, degree_positive, degree_rsqrt, zero_scalar]
  rfl

/-! ## Between the products: the first layer in arrangement A, clamped at zero -/

set_option maxHeartbeats 4000000 in
theorem layer1_stretch :
    after hostOps1 V (Proc.devRef .tc main_v33)
      = layerA layer1Facts (V (Proc.devRef .tc main_v15)) (V (Proc.devRef .tc main_v14))
          (V (Proc.devRef .tc main_v1)) (V (Proc.devRef .tc main_v3)) (V (Proc.devRef .tc main_arg3)) := by
  after_results_simp
  rfl

theorem clamp_stretch :
    after hostOps1_1 V (Proc.devRef .tc main_v34) = clampZero Facts₀.bcast_S_S100000x256 (V (Proc.devRef .tc main_v33)) := by
  after_results
  rfl

theorem hidden_layer :
    after hostOps1_1 (after hostOps1 V) (Proc.devRef .tc main_v34)
      = clampZero Facts₀.bcast_S_S100000x256
          (layerA layer1Facts (V (Proc.devRef .tc main_v15)) (V (Proc.devRef .tc main_v14))
            (V (Proc.devRef .tc main_v1)) (V (Proc.devRef .tc main_v3)) (V (Proc.devRef .tc main_arg3))) := by
  rw [clamp_stretch, layer1_stretch]

/-! ## After the second product: the second layer in arrangement A -/

set_option maxHeartbeats 4000000 in
theorem layer2_stretch :
    after hostOps2 V (Proc.devRef .tc main_v53)
      = layerA layer2Facts (V (Proc.devRef .tc main_v35)) (V (Proc.devRef .tc main_v14))
          (V (Proc.devRef .tc main_v1)) (V (Proc.devRef .tc main_v3)) (V (Proc.devRef .tc main_arg5)) := by
  after_results_simp
  rfl

end Cert.KernelIdeal.KValue

end
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«165974_j30966714204224_2_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.KProducts.lean ====
/-
  The two matrix products of the idealized kernel, each computed by a region of ten grid points.

  At point t a region loads rows 10000·t … 10000·t + 9999 of its left array and the whole right array, and stores their
  product — a sum over the contraction index, no rounding at the ideal values, the change of format the identity — as the same
  rows of its result array. The ten row blocks tile the result, so after the region the result array is the whole product of the
  two arrays as the region found them, entry by entry the sum a host dot_general computes.
-/
import proofs.«165974_j30966714204224_2_alg».proof.Proof.Gen.KernelIdeal.Frame
import proofs.«165974_j30966714204224_2_alg».proof.Proof.LibPlainDot
import Idealize.ShloMosaic.Lib.Pipeline.Value
import Idealize.ShloMosaic.Lib.ValueIdx

set_option maxRecDepth 16384

noncomputable section

open scoped BigOperators

namespace Cert.KernelIdeal.Products

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: [100000, 128] × [128, 256], ten row blocks of 10000 -/

/-- The body's stored value at an entry of the block: row p of the left block against column q of the right block. -/
theorem pay0_at (x0 : Vec Ideal S10000x128 .f32) (x1 : Vec Ideal S128x256 .f32) (p : Fin 10000) (q : Fin 256) :
    k0_pay1 x0 x1 (ix2 p q) = ∑ k : Fin 128, x0 (ix2 p k) * x1 (ix2 k q) := by
  unfold k0_pay1
  exact Cert.LibPlainDot.matmul_zero_at (A := 10000) (K := 128) (B := 256) dot_S10000x128_S128x256_S10000x256_1_0_0_1_n_n rfl rfl rfl rfl rfl rfl rfl rfl none _ _ p q

/-- The printed index maps over the grid: at point t the left operand and the result are at row block t, the right operand at
    its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- The whole product the region's result array ends at. -/
abbrev product0 (X : S100000x128.Idx → EReal) (W : S128x256.Idx → EReal) : S100000x256.Idx → EReal :=
  Host.dotGeneral (F := Ideal) (φ₁ := .f32) (φ₂ := .f32) (DotDims.plain 100000 128 256) none X W

theorem product0_at (X : S100000x128.Idx → EReal) (W : S128x256.Idx → EReal) (p : Fin 100000) (q : Fin 256) :
    product0 X W (ix2 p q) = ∑ k : Fin 128, X (ix2 p k) * W (ix2 k q) :=
  Cert.LibPlainDot.dotGeneral_at (A := 100000) (K := 128) (B := 256) (φ₁ := .f32) (φ₂ := .f32) (DotDims.plain 100000 128 256) rfl rfl rfl rfl rfl rfl rfl rfl none .single X W p q

/-- What point t writes back is block t of the whole product of the arrays the region finds. -/
theorem flushed0_eq (c : Dev nD) (t : Fin cfg0.N) :
    (dat0 (F := Ideal) V c).flushed 2 t
      = ((cfg0.win 2).blk t).view.read (Elt Ideal) (product0 (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x256) hz]
  obtain ⟨e0, e1, e2, e3, e4, e5⟩ := idx_facts0 t
  have ht : t.val < 10 := by have := t.isLt; have hN : cfg0.N = 10 := N_0; omega
  funext j
  obtain ⟨p, q, rfl⟩ : ∃ (p : Fin 10000) (q : Fin 256), j = ix2 p q := ⟨j 0, j 1, eq_ix2 j⟩
  show k0_pay1 (iblk0 V c 0 t) (iblk0 V c 1 t) (ix2 p q)
    = product0 (V c main_arg0) (V c main_arg2) (((cfg0.win 2).blk t).view.emb (ix2 p q))
  have hi : ((cfg0.win 2).blk t).view.emb (ix2 p q) = ix2 (⟨t.val * 10000 + p.val, by have := p.isLt; omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 256 + 1 * q.val = q.val; omega
  rw [hi, product0_at]
  refine (pay0_at _ _ p q).trans (Finset.sum_congr rfl fun k _ => ?_)
  have h0 : ((cfg0.win 0).blk t).view.emb (ix2 p k) = ix2 (⟨t.val * 10000 + p.val, by have := p.isLt; omega⟩ : Fin 100000) k := by
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 256 + 1 * q.val = q.val; omega
  have hb0 : iblk0 V c 0 t (ix2 p k) = V c main_arg0 (ix2 (⟨t.val * 10000 + p.val, by have := p.isLt; omega⟩ : Fin 100000) k) := by
    show V c main_arg0 (((cfg0.win 0).blk t).view.emb (ix2 p k)) = _
    rw [h0]
  have hb1 : iblk0 V c 1 t (ix2 k q) = V c main_arg2 (ix2 k q) := by
    show V c main_arg2 (((cfg0.win 1).blk t).view.emb (ix2 k q)) = _
    rw [h1]
  rw [hb0, hb1]

/-- An index of the result array is in point t's block iff each coordinate is in the block's range on its axis. -/
theorem mem_blk0 (t : Fin cfg0.N) (i : S100000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v15).slice (win0_2.rect t)).set ↔ _
  rw [View.set_slice_whole, Rect.mem_set_unit]
  exact Iff.rfl

/-- The ten row blocks cover the result array. -/
theorem cover0 (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 256 ≤ (i 1).val ∧ (i 1).val < win0_2.index t (1 : Fin 2) * 256 + 256; omega

/-- The region's result array after its ten points: the whole product of the two arrays the region finds. -/
theorem region0 (c : Dev nD) :
    (dat0 (F := Ideal) V c).arrAt 2 cfg0.N = product0 (V c main_arg0) (V c main_arg2) :=
  (dat0 (F := Ideal) V c).arrAt_eq_of_cover 2 (product0 (V c main_arg0) (V c main_arg2)) (fun t _ => flushed0_eq V c t) (cover0)

/-! ## Region 1: [100000, 256] × [256, 64], ten row blocks of 10000 -/

/-- The body's stored value at an entry of the block: row p of the left block against column q of the right block. -/
theorem pay1_at (x0 : Vec Ideal S10000x256 .f32) (x1 : Vec Ideal S256x64 .f32) (p : Fin 10000) (q : Fin 64) :
    k1_pay1 x0 x1 (ix2 p q) = ∑ k : Fin 256, x0 (ix2 p k) * x1 (ix2 k q) := by
  unfold k1_pay1
  rw [shapeCast_self]
  exact Cert.LibPlainDot.matmul_zero_at (A := 10000) (K := 256) (B := 64) dot_S10000x256_S256x64_S10000x64_1_0_0_1_n_n rfl rfl rfl rfl rfl rfl rfl rfl none _ _ p q

/-- The printed index maps over the grid: at point t the left operand and the result are at row block t, the right operand at
    its one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- The whole product the region's result array ends at. -/
abbrev product1 (X : S100000x256.Idx → EReal) (W : S256x64.Idx → EReal) : S100000x64.Idx → EReal :=
  Host.dotGeneral (F := Ideal) (φ₁ := .f32) (φ₂ := .f32) (DotDims.plain 100000 256 64) none X W

theorem product1_at (X : S100000x256.Idx → EReal) (W : S256x64.Idx → EReal) (p : Fin 100000) (q : Fin 64) :
    product1 X W (ix2 p q) = ∑ k : Fin 256, X (ix2 p k) * W (ix2 k q) :=
  Cert.LibPlainDot.dotGeneral_at (A := 100000) (K := 256) (B := 64) (φ₁ := .f32) (φ₂ := .f32) (DotDims.plain 100000 256 64) rfl rfl rfl rfl rfl rfl rfl rfl none .single X W p q

/-- What point t writes back is block t of the whole product of the arrays the region finds. -/
theorem flushed1_eq (c : Dev nD) (t : Fin cfg1.N) :
    (dat1 (F := Ideal) V c).flushed 2 t
      = ((cfg1.win 2).blk t).view.read (Elt Ideal) (product1 (V c main_v34) (V c main_arg4)) := by
  show (cfg1.win 2).cut (grid1.coords t) ((dat1 (F := Ideal) V c).after 2 t) = _
  rw [after1_2]
  unfold out1_2
  rw [View.canon_unit_zero hz]
  simp only [View.ld_unit_zero (S := S10000x256) hz, View.ld_unit_zero (S := S256x64) hz]
  obtain ⟨e0, e1, e2, e3, e4, e5⟩ := idx_facts1 t
  have ht : t.val < 10 := by have := t.isLt; have hN : cfg1.N = 10 := N_1; omega
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = product1 (V c main_v34) (V c main_arg4) (((cfg1.win 2).blk t).view.emb (ix2 p q))
  have hi : ((cfg1.win 2).blk t).view.emb (ix2 p q) = ix2 (⟨t.val * 10000 + p.val, by have := p.isLt; omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  rw [hi, product1_at]
  refine (pay1_at _ _ p q).trans (Finset.sum_congr rfl fun k _ => ?_)
  have h0 : ((cfg1.win 0).blk t).view.emb (ix2 p k) = ix2 (⟨t.val * 10000 + p.val, by have := p.isLt; omega⟩ : Fin 100000) k := by
    funext a; apply Fin.ext
    match a with
    | ⟨0, _⟩ => show win1_0.index t (0 : Fin 2) * 10000 + 1 * p.val = t.val * 10000 + p.val; omega
    | ⟨1, _⟩ => show win1_0.index t (1 : Fin 2) * 256 + 1 * k.val = k.val; omega
  have h1 : ((cfg1.win 1).blk t).view.emb (ix2 k q) = ix2 k q := by
    funext a; apply Fin.ext
    match a with
    | ⟨0, _⟩ => show win1_1.index t (0 : Fin 2) * 256 + 1 * k.val = k.val; omega
    | ⟨1, _⟩ => show win1_1.index t (1 : Fin 2) * 64 + 1 * q.val = q.val; omega
  have hb0 : iblk1 V c 0 t (ix2 p k) = V c main_v34 (ix2 (⟨t.val * 10000 + p.val, by have := p.isLt; omega⟩ : Fin 100000) k) := by
    show V c main_v34 (((cfg1.win 0).blk t).view.emb (ix2 p k)) = _
    rw [h0]
  have hb1 : iblk1 V c 1 t (ix2 k q) = V c main_arg4 (ix2 k q) := by
    show V c main_arg4 (((cfg1.win 1).blk t).view.emb (ix2 k q)) = _
    rw [h1]
  rw [hb0, hb1]

/-- An index of the result array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v35).slice (win1_2.rect t)).set ↔ _
  rw [View.set_slice_whole, Rect.mem_set_unit]
  exact Iff.rfl

/-- The ten row blocks cover the result array. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The region's result array after its ten points: the whole product of the two arrays the region finds. -/
theorem region1 (c : Dev nD) :
    (dat1 (F := Ideal) V c).arrAt 2 cfg1.N = product1 (V c main_v34) (V c main_arg4) :=
  (dat1 (F := Ideal) V c).arrAt_eq_of_cover 2 (product1 (V c main_v34) (V c main_arg4)) (fun t _ => flushed1_eq V c t) (cover1)

end Cert.KernelIdeal.Products

end
-- ==== Proof.KValue.lean ====
/-
  What the idealized kernel's result buffer holds when @main returns, as one function of the six arguments.

  The buffers at each boundary between segments are a fold from the launch contents. Read backwards from the result:
  the last stretch of host operations is arrangement A's aggregation of the second product; the second product is the whole
  product of the clamped first layer with W2; the clamp and the stretch before it are the first layer's aggregation of the
  first product; the first product is x · W1; and the three stretches before it cut the source and destination words out of
  the edge list and compute the node weights as a column. A buffer no operation of a stretch writes, and no region's array,
  is carried across unchanged, which is how the words, the weight column and the later arguments reach the later stretches.
-/
import proofs.«165974_j30966714204224_2_alg».proof.Proof.KEntry
import proofs.«165974_j30966714204224_2_alg».proof.Proof.KStretches
import proofs.«165974_j30966714204224_2_alg».proof.Proof.KProducts

set_option maxRecDepth 16384

noncomputable section

namespace Cert.KernelIdeal.KValue

open Cert.KernelIdeal Cert.KernelIdeal.Gen Cert.Gcn
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The weight column at the first product's entry -/

theorem entry0_col (c : Dev nD) :
    W3 m ρ c (Proc.devRef .tc main_v14)
      = colOf Facts₀.bcast_S100000_S100000x1_0 (weights weightFacts (dstOf edgeFacts (m ((c : Thread nD τ).loc main_arg1)))) :=
  weights_column (W0 m ρ c)

/-! ## Across the first product -/

theorem exit0_product (c : Dev nD) :
    W4 m ρ c (Proc.devRef .tc main_v15)
      = product1 (m ((c : Thread nD τ).loc main_arg0)) (m ((c : Thread nD τ).loc main_arg2)) := by
  refine (W4_arr m ρ c 2).trans ?_
  refine (Cert.KernelIdeal.Products.region0 (V3 m ρ) c).trans ?_
  show Cert.KernelIdeal.Products.product0 (W3 m ρ c (Proc.devRef .tc main_arg0)) (W3 m ρ c (Proc.devRef .tc main_arg2)) = _
  rw [entry0_arg0, entry0_arg2]
  rfl

/-! ## The first layer's aggregation and the clamp -/

theorem entry1_hidden (c : Dev nD) :
    W6 m ρ c (Proc.devRef .tc main_v34)
      = clampZero Facts₀.bcast_S_S100000x256
          (layerA layer1Facts (W4 m ρ c (Proc.devRef .tc main_v15)) (W4 m ρ c (Proc.devRef .tc main_v14))
            (W4 m ρ c (Proc.devRef .tc main_v1)) (W4 m ρ c (Proc.devRef .tc main_v3)) (W4 m ρ c (Proc.devRef .tc main_arg3))) :=
  hidden_layer (W4 m ρ c)

theorem entry1_v14 (c : Dev nD) : W6 m ρ c (Proc.devRef .tc main_v14) = W4 m ρ c (Proc.devRef .tc main_v14) := by
  show after hostOps1_1 (after hostOps1 (W4 m ρ c)) (Proc.devRef .tc main_v14) = _
  after_results
theorem entry1_v1 (c : Dev nD) : W6 m ρ c (Proc.devRef .tc main_v1) = W4 m ρ c (Proc.devRef .tc main_v1) := by
  show after hostOps1_1 (after hostOps1 (W4 m ρ c)) (Proc.devRef .tc main_v1) = _
  after_results
theorem entry1_v3 (c : Dev nD) : W6 m ρ c (Proc.devRef .tc main_v3) = W4 m ρ c (Proc.devRef .tc main_v3) := by
  show after hostOps1_1 (after hostOps1 (W4 m ρ c)) (Proc.devRef .tc main_v3) = _
  after_results
theorem entry1_arg4 (c : Dev nD) : W6 m ρ c (Proc.devRef .tc main_arg4) = W4 m ρ c (Proc.devRef .tc main_arg4) := by
  show after hostOps1_1 (after hostOps1 (W4 m ρ c)) (Proc.devRef .tc main_arg4) = _
  after_results
theorem entry1_arg5 (c : Dev nD) : W6 m ρ c (Proc.devRef .tc main_arg5) = W4 m ρ c (Proc.devRef .tc main_arg5) := by
  show after hostOps1_1 (after hostOps1 (W4 m ρ c)) (Proc.devRef .tc main_arg5) = _
  after_results

/-! ## Across the second product -/

theorem exit1_product (c : Dev nD) :
    W7 m ρ c (Proc.devRef .tc main_v35)
      = product2 (W6 m ρ c (Proc.devRef .tc main_v34)) (W6 m ρ c (Proc.devRef .tc main_arg4)) :=
  (W7_arr m ρ c 2).trans (Cert.KernelIdeal.Products.region1 (V6 m ρ) c)

/-! ## The last stretch: the second layer's aggregation -/

theorem result_layer (c : Dev nD) :
    W8 m ρ c (Proc.devRef .tc main_v53)
      = layerA layer2Facts (W7 m ρ c (Proc.devRef .tc main_v35)) (W7 m ρ c (Proc.devRef .tc main_v14))
          (W7 m ρ c (Proc.devRef .tc main_v1)) (W7 m ρ c (Proc.devRef .tc main_v3)) (W7 m ρ c (Proc.devRef .tc main_arg5)) :=
  layer2_stretch (W7 m ρ c)

/-! ## The result as one function of the arguments -/

/-- When @main returns, the result buffer holds the network in arrangement A of the six arguments as launched. -/
theorem result_value (c : Dev nD) :
    W8 m ρ c (Proc.devRef .tc main_v53)
      = netA edgeFacts weightFacts Facts₀.bcast_S100000_S100000x1_0 layer1Facts layer2Facts Facts₀.bcast_S_S100000x256
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [result_layer, exit1_product, entry1_hidden, exit0_product]
  rw [W7_of_ne m ρ c main_v14 (by decide), W7_of_ne m ρ c main_v1 (by decide), W7_of_ne m ρ c main_v3 (by decide),
    W7_of_ne m ρ c main_arg5 (by decide)]
  rw [entry1_v14, entry1_v1, entry1_v3, entry1_arg4, entry1_arg5]
  rw [W4_of_ne m ρ c main_v14 (by decide), W4_of_ne m ρ c main_v1 (by decide), W4_of_ne m ρ c main_v3 (by decide),
    W4_of_ne m ρ c main_arg3 (by decide), W4_of_ne m ρ c main_arg4 (by decide), W4_of_ne m ρ c main_arg5 (by decide)]
  rw [entry0_col, entry0_src, entry0_dst, entry0_arg3, entry0_arg4, entry0_arg5]
  rfl

end Cert.KernelIdeal.KValue

end
-- ==== Proof.RValue.lean ====
/-
  What the idealized reference's result buffer holds when @main returns, as one function of the six arguments: the network in
  arrangement B. The reference is a straight line of host operations; its run ends with the result at the operations' composed
  term, and that term is arrangement B's text — the same operations in the same order, the node weights computed once per
  layer — so the two are equal by unfolding the definitions.
-/
import proofs.«165974_j30966714204224_2_alg».proof.Proof.RefRunPatched
import proofs.«165974_j30966714204224_2_alg».proof.Proof.GcnSpec

set_option maxRecDepth 16384

noncomputable section

namespace Cert.ReferenceIdeal.RValue

open Cert.ReferenceIdeal Cert.ReferenceIdeal.Facts₀ Cert.Gcn
open Idealize.ShloMosaic Idealize.ShloMosaic.TcCoe Idealize.SL.Sem

/-! ## The shape facts, from the program's -/

theorem edgeFacts : EdgeFacts := ⟨slices_S2x800000_S1x800000_0_0, slices_S2x800000_S1x800000_1_0, shapeCasts_S1x800000_S800000⟩
theorem weightFacts : WFacts :=
  ⟨concatenates_S800000_S100000_S900000_d0, bcast_S_S900000, bcast_S_S100000, bcast_S900000_S900000x1_0,
    scatter_S100000_S900000x1_S900000_n_0_0_1_wf⟩
theorem layer1Facts : BFacts 256 :=
  ⟨concatenates_S800000_S100000_S900000_d0, bcast_S_S900000, bcast_S900000_S900000x1_0,
    gather_S100000_S900000x1_S900000_n_0_n_n_0_1_1_wf, gather_S100000x256_S900000x1_S900000x256_1_0_n_n_0_1_1256_wf,
    bcast_S900000x1_S900000x256_0_1, bcast_S_S100000x256, scatter_S100000x256_S900000x1_S900000x256_1_0_0_1_wf,
    bcast_S256_S1x256_1, bcast_S1x256_S100000x256_0_1⟩
theorem layer2Facts : BFacts 64 :=
  ⟨concatenates_S800000_S100000_S900000_d0, bcast_S_S900000, bcast_S900000_S900000x1_0,
    gather_S100000_S900000x1_S900000_n_0_n_n_0_1_1_wf, gather_S100000x64_S900000x1_S900000x64_1_0_n_n_0_1_164_wf,
    bcast_S900000x1_S900000x64_0_1, bcast_S_S100000x64, scatter_S100000x64_S900000x1_S900000x64_1_0_0_1_wf,
    bcast_S64_S1x64_1, bcast_S1x64_S100000x64_0_1⟩

/-- The run's composed term is the network in arrangement B of the six arguments as launched. -/
theorem result_value (m : (ℓ : Loc nD τ sig) → Buf (Elt Ideal) ℓ) (c : Dev nD) :
    Cert.ReferenceIdeal.ValueP.res_main_v94 (F := Ideal) m c
      = netB edgeFacts weightFacts layer1Facts layer2Facts bcast_S_S100000x256
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  rfl

end Cert.ReferenceIdeal.RValue

end
-- ==== Proof.lean ====
/-
  A two-layer graph convolution over 100000 nodes and 800000 edges: a kernel that computes the two dense products in
  row blocks and aggregates with the node weights applied to the nodes (before and after each neighbour sum), against a
  reference that appends a self-loop per node and weights every edge by the product of its two ends' weights.

  The three frames: the two kernels' frames are the generated frame certificates; the reference's is its run with the result
  dropped. No operation was rewritten to idealize the kernel, so the sanctioned-idealization conjunct is trivial. At the ideal
  values the kernel's result is the network in arrangement A of the arguments (KRun: the run with the result named; KValue: that
  contents read back through the host stretches and the two row-blocked products, each the whole product by KProducts) and the
  reference's is the network in arrangement B (RValue). The two networks are one function (GcnSpec) because one layer's two
  arrangements agree whenever the node weights are non-negative finite numbers (GcnLayer, over the distributive law of LibNonnegFactor), and
  the weights are, whatever the degrees (GcnWeights). The finiteness precondition is not used: the law needs no finite feature.
-/
import proofs.«165974_j30966714204224_2_alg».proof.Defs
import proofs.«165974_j30966714204224_2_alg».proof.Proof.Gen.Kernel
import proofs.«165974_j30966714204224_2_alg».proof.Proof.Gen.Kernel.Frame
import proofs.«165974_j30966714204224_2_alg».proof.Proof.Gen.KernelIdeal
import proofs.«165974_j30966714204224_2_alg».proof.Proof.Gen.KernelIdeal.Frame
import proofs.«165974_j30966714204224_2_alg».proof.Proof.Gen.ReferenceIdeal
import proofs.«165974_j30966714204224_2_alg».proof.Proof.Gen.Pre_finite_inputs
import proofs.«165974_j30966714204224_2_alg».proof.Proof.RefRunPatched
import proofs.«165974_j30966714204224_2_alg».proof.Proof.KRun
import proofs.«165974_j30966714204224_2_alg».proof.Proof.KValue
import proofs.«165974_j30966714204224_2_alg».proof.Proof.RValue
import proofs.«165974_j30966714204224_2_alg».proof.Proof.GcnSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs run, and both results are the one network of the arguments:
    the kernel's in arrangement A, the reference's in arrangement B, which are equal. -/
theorem algebraic : Cert.algebraic_KernelIdeal_ReferenceIdeal := by
  intro m ρ m' ρ' _ hagree
  refine ⟨fun c => Cert.Gcn.netA Cert.KernelIdeal.KValue.edgeFacts Cert.KernelIdeal.KValue.weightFacts
      Cert.KernelIdeal.Facts₀.bcast_S100000_S100000x1_0 Cert.KernelIdeal.KValue.layer1Facts Cert.KernelIdeal.KValue.layer2Facts
      Cert.KernelIdeal.Facts₀.bcast_S_S100000x256
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.result_value m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.RValue.result_value m' c).trans ?_
    rw [(hagree c).1, (hagree c).2.1, (hagree c).2.2.1, (hagree c).2.2.2.1, (hagree c).2.2.2.2.1, (hagree c).2.2.2.2.2]
    exact (Cert.Gcn.netA_eq_netB _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
